-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x40 : Shape := ⟨2, ![100000, 40]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x40, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x40, .f32⟩
  | .hbm, ⟨77, _⟩ => ⟨S3300000x1, .f32⟩
  | .hbm, ⟨78, _⟩ => ⟨S3300000x40, .f32⟩
  | .hbm, ⟨79, _⟩ => ⟨S3300000x40, .f32⟩
  | .hbm, ⟨80, _⟩ => ⟨S_, .f32⟩
  | .hbm, ⟨81, _⟩ => ⟨S100000x40, .f32⟩
  | .hbm, ⟨82, _⟩ => ⟨S3300000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x40, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x40, .f32⟩
  | .hbm, ⟨82, _⟩ => ⟨S3300000x1, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The kernel program's run with its RESULT read: every weakly fair execution of @main terminates, nothing faulting, with
  the arguments as launched and the result buffer holding what the fold over @main's segments leaves there —
  host stretch, region 0, host stretch, region 1, host stretch, region 2, each boundary's contents a function of the
  previous boundary's (the W0 … W8 of the frame). The last thread state holds every unscoped buffer at W8; reading the
  result buffer off it, beside the arguments, is the whole difference from the frame claim.
-/
import proofs.«126225_j51616916963867_1_alg».proof.Proof.Gen.KernelIdeal.Frame

noncomputable section

set_option maxRecDepth 16384

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.NetworkGlue.lean ====
/-
  The graph side of the network as named whole-array functions over the host operations both programs are printed with.

  Graph side (integers and the edge weights; no dense arithmetic):
    sources / destinations   the edge list's two rows, each followed by the self loops 0 … 99999
    wrapIndex                a negative node number counts from the end: n < 0 ↦ n + 100000; then one index word per edge
    degree                   the number of edges arriving at each node: ones scattered-and-added by destination
    invSqrtDegree            deg > 0 ? rsqrt (max deg 1) : 0
    edgeWeights              invSqrtDegree at the source times invSqrtDegree at the destination, per edge
    propagate h              out(i, ·) = Σ_{edges j → i} weight · h(j, ·): gather by source, scale, scatter-add by destination
  These are the SAME operations in both programs; a proof carries them as names and never opens them.
-/
import proofs.«126225_j51616916963867_1_alg».proof.Proof.Gen.ReferenceIdeal

noncomputable section

namespace Cert.GcnReference

open Cert.ReferenceIdeal Cert.ReferenceIdeal.Gen Idealize.ShloMosaic Idealize.ShloMosaic.TcCoe

variable {F : FTy → Type} [FloatOps F]

/-- Row 0 of the edge list, then the self loops. -/
def sources (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row 1 of the edge list, then the self loops. -/
def destinations (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node number as an index word: a negative one counts from the end. -/
def wrapIndex (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The number of edges arriving at each node. -/
def degree (d : (⟨S3300000, .i32⟩ : BufTy).Contents (Elt F)) : (⟨S100000, .f32⟩ : BufTy).Contents (Elt F) :=
  Host.scatterAdd (F := F) scatter_S100000_S3300000x1_S3300000_n_0_0_1
    (broadcastInDim S100000 ![] bcast_S_S100000 (constant (F := F) S_ .f32 0x00000000#32))
    (broadcastInDim S3300000x1 ![0] bcast_S3300000_S3300000x1_0 d)
    (broadcastInDim S3300000 ![] bcast_S_S3300000 (constant (F := F) S_ .f32 0x3F800000#32))

/-- deg > 0 ? rsqrt (max deg 1) : 0, per node. -/
def invSqrtDegree (d : (⟨S3300000, .i32⟩ : BufTy).Contents (Elt F)) : (⟨S100000, .f32⟩ : BufTy).Contents (Elt F) :=
  select (cmpf (F := F) .ogt (degree (F := F) d) (broadcastInDim S100000 ![] bcast_S_S100000 (constant (F := F) S_ .f32 0x00000000#32)))
    (Host.rsqrt (F := F) (maximumf (F := F) (degree (F := F) d) (broadcastInDim S100000 ![] bcast_S_S100000 (constant (F := F) S_ .f32 0x3F800000#32))))
    (broadcastInDim S100000 ![] bcast_S_S100000 (id (constant (F := F) S_ .f32 0x00000000#32)))

/-- The weight of each edge: invSqrtDegree at its source times invSqrtDegree at its destination. -/
def edgeWeights (s d : (⟨S3300000, .i32⟩ : BufTy).Contents (Elt F)) : (⟨S3300000, .f32⟩ : BufTy).Contents (Elt F) :=
  mulf (F := F) (Host.gather gather_S100000_S3300000x1_S3300000_n_0_n_n_0_1_1 (invSqrtDegree (F := F) d) (wrapIndex (F := F) s))
    (Host.gather gather_S100000_S3300000x1_S3300000_n_0_n_n_0_1_1 (invSqrtDegree (F := F) d) (wrapIndex (F := F) d))

/-- One round of message passing on 16 features: gather rows by source, scale by the edge's weight, add up by destination. -/
def propagate16 (h : (⟨S100000x16, .f32⟩ : BufTy).Contents (Elt F)) (s d : (⟨S3300000, .i32⟩ : BufTy).Contents (Elt F))
    (n : (⟨S3300000, .f32⟩ : BufTy).Contents (Elt F)) : (⟨S100000x16, .f32⟩ : BufTy).Contents (Elt F) :=
  Host.scatterAdd (F := F) scatter_S100000x16_S3300000x1_S3300000x16_1_0_0_1
    (broadcastInDim S100000x16 ![] bcast_S_S100000x16 (constant (F := F) S_ .f32 0x00000000#32))
    (broadcastInDim S3300000x1 ![0] bcast_S3300000_S3300000x1_0 d)
    (mulf (F := F) (Host.gather gather_S100000x16_S3300000x1_S3300000x16_1_0_n_n_0_1_116 h (wrapIndex (F := F) s))
      (broadcastInDim S3300000x16 ![0, 1] bcast_S3300000x1_S3300000x16_0_1 (broadcastInDim S3300000x1 ![0] bcast_S3300000_S3300000x1_0 n)))

/-- One round of message passing on 40 features. -/
def propagate40 (h : (⟨S100000x40, .f32⟩ : BufTy).Contents (Elt F)) (s d : (⟨S3300000, .i32⟩ : BufTy).Contents (Elt F))
    (n : (⟨S3300000, .f32⟩ : BufTy).Contents (Elt F)) : (⟨S100000x40, .f32⟩ : BufTy).Contents (Elt F) :=
  Host.scatterAdd (F := F) scatter_S100000x40_S3300000x1_S3300000x40_1_0_0_1
    (broadcastInDim S100000x40 ![] bcast_S_S100000x40 (constant (F := F) S_ .f32 0x00000000#32))
    (broadcastInDim S3300000x1 ![0] bcast_S3300000_S3300000x1_0 d)
    (mulf (F := F) (Host.gather gather_S100000x40_S3300000x1_S3300000x40_1_0_n_n_0_1_140 h (wrapIndex (F := F) s))
      (broadcastInDim S3300000x40 ![0, 1] bcast_S3300000x1_S3300000x40_0_1 (broadcastInDim S3300000x1 ![0] bcast_S3300000_S3300000x1_0 n)))

/-! ## The dense stages, as the reference's host operations -/

/-- The reference's hidden layer: the bias along every row, then the positive part. -/
def hiddenHost (a : (⟨S100000x16, .f32⟩ : BufTy).Contents (Elt F)) (b : (⟨S16, .f32⟩ : BufTy).Contents (Elt F)) : (⟨S100000x16, .f32⟩ : BufTy).Contents (Elt F) :=
  maximumf (F := F) (addf (F := F) a (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- The reference's logits: the bias along every row. -/
def logitsHost (a : (⟨S100000x40, .f32⟩ : BufTy).Contents (Elt F)) (b : (⟨S40, .f32⟩ : BufTy).Contents (Elt F)) : (⟨S100000x40, .f32⟩ : BufTy).Contents (Elt F) :=
  addf (F := F) a (broadcastInDim S100000x40 ![0, 1] bcast_S1x40_S100000x40_0_1 (broadcastInDim S1x40 ![1] bcast_S40_S1x40_1 b))

/-- The reference's row maxima, as it computes them: the larger of −∞ and the reduction of the row from −∞. -/
def rowMaxHost (z : (⟨S100000x40, .f32⟩ : BufTy).Contents (Elt F)) : (⟨S100000, .f32⟩ : BufTy).Contents (Elt F) :=
  maximumf (F := F) (broadcastInDim S100000 ![] bcast_S_S100000 (constant (F := F) S_ .f32 0xFF800000#32))
    (Host.reduce FloatOps.maximumf z (constant (F := F) S_ .f32 0xFF800000#32) reducesTo_S100000x40_S100000_d1 h_S_)

/-- The reference's shifted logits: each row minus its maximum. -/
def shiftedHost (z : (⟨S100000x40, .f32⟩ : BufTy).Contents (Elt F)) : (⟨S100000x40, .f32⟩ : BufTy).Contents (Elt F) :=
  subf (F := F) z (broadcastInDim S100000x40 ![0, 1] bcast_S100000x1_S100000x40_0_1 (broadcastInDim S100000x1 ![0] bcast_S100000_S100000x1_0 (rowMaxHost (F := F) z)))

/-- The reference's log-softmax of the rows: the shifted logits minus the log of the row's sum of their exponentials. -/
def logSoftmaxHost (z : (⟨S100000x40, .f32⟩ : BufTy).Contents (Elt F)) : (⟨S100000x40, .f32⟩ : BufTy).Contents (Elt F) :=
  subf (F := F) (shiftedHost (F := F) z)
    (broadcastInDim S100000x40 ![0, 1] bcast_S100000x1_S100000x40_0_1
      (Host.log (F := F) (broadcastInDim S100000x1 ![0] bcast_S100000_S100000x1_0
        (Host.reduceAdd (F := F) (Host.exp (F := F) (shiftedHost (F := F) z)) (constant (F := F) S_ .f32 0x00000000#32) reducesTo_S100000x40_S100000_d1 h_S_))))

/-- THE REFERENCE NETWORK, as one function of @main's six arguments. -/
def network (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) : (⟨S100000x40, .f32⟩ : BufTy).Contents (Elt F) :=
  logSoftmaxHost (F := F) (logitsHost (F := F)
    (propagate40 (F := F)
      (Host.dotGeneral (F := F) dot_S100000x16_S16x40_S100000x40_1_0_0_1_n_n none
        (hiddenHost (F := F)
          (propagate16 (F := F) (Host.dotGeneral (F := F) dot_S100000x128_S128x16_S100000x16_1_0_0_1_n_n none x w1)
            (sources (F := F) e) (destinations (F := F) e) (edgeWeights (F := F) (sources (F := F) e) (destinations (F := F) e)))
          b1) w2)
      (sources (F := F) e) (destinations (F := F) e) (edgeWeights (F := F) (sources (F := F) e) (destinations (F := F) e)))
    b2)

end Cert.GcnReference

end
-- ==== Proof.GlueTactics.lean ====
/-
  Two small proof steps shared by the kernel's and the reference's host stretches.
    kept_by ops   a stretch of host operations leaves a buffer alone: none of its operations' result buffers is that buffer.
    unfold_glue   spell the named graph and stage functions out as the host operations they are made of, so that both
                  sides of an equation are written with the same operations.
-/
import proofs.«126225_j51616916963867_1_alg».proof.Proof.NetworkGlue
import Idealize.ShloMosaic.Lib.StableHlo.Run

noncomputable section

namespace Cert.Gcn

open Idealize.ShloMosaic

macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

macro "unfold_glue" : tactic => `(tactic|
  ((try unfold Cert.GcnReference.logSoftmaxHost); (try unfold Cert.GcnReference.shiftedHost); (try unfold Cert.GcnReference.rowMaxHost);
   (try unfold Cert.GcnReference.logitsHost); (try unfold Cert.GcnReference.hiddenHost);
   (try unfold Cert.GcnReference.propagate16); (try unfold Cert.GcnReference.propagate40); (try unfold Cert.GcnReference.edgeWeights);
   (try unfold Cert.GcnReference.invSqrtDegree); (try unfold Cert.GcnReference.degree); (try unfold Cert.GcnReference.wrapIndex);
   (try unfold Cert.GcnReference.sources); (try unfold Cert.GcnReference.destinations)))

end Cert.Gcn

end
-- ==== Proof.KernelStretches.lean ====
/-
  The host stretches of the kernel program's @main, each read from ARBITRARY contents U of the buffers when it starts:
  what the stretch leaves in the buffers that later segments read, as the named graph functions of what it reads.
    stretch 0   sources, destinations, "degree > 0", rsqrt (max degree 1), the zero         (before region 0)
    stretch 01  the outlined "where": no weight for a node with no incoming edge
    stretch 02  the edge weights
    stretch 1   the first layer's messages passed; the first bias as a one-row array         (between regions 0 and 1)
    stretch 2   the second layer's messages passed; the second bias as a one-row array      (between regions 1 and 2)
  Stated for any U, a stretch's lemma never opens the chain of boundaries that precedes it.
-/
import proofs.«126225_j51616916963867_1_alg».proof.Proof.Gen.KernelIdeal.Frame
import proofs.«126225_j51616916963867_1_alg».proof.Proof.GlueTactics
import Idealize.ShloMosaic.Lib.StableHlo.Run
import Idealize.ShloMosaic.PureOps.Ideal

noncomputable section

set_option maxRecDepth 16384

namespace Cert.GcnKernel

open Cert.KernelIdeal Cert.KernelIdeal.Gen Cert.Gcn Idealize.ShloMosaic Idealize.ShloMosaic.TcCoe Idealize.SL.Sem Idealize.ShloMosaic.StableHlo
open Cert.GcnReference (sources destinations wrapIndex degree invSqrtDegree edgeWeights propagate16 propagate40)

variable (U : Valuation τ sig (Elt Ideal))

/-! ## The host stretches, from any incoming contents -/

set_option maxHeartbeats 4000000 in
theorem stretch0_sources : StableHlo.after (hostOps0 (F := Ideal)) U (Proc.devRef .tc main_v3) = sources (F := Ideal) (U (Proc.devRef .tc main_arg1)) := by
  after_results_simp <;> (unfold_glue; rfl)
set_option maxHeartbeats 4000000 in
theorem stretch0_destinations : StableHlo.after (hostOps0 (F := Ideal)) U (Proc.devRef .tc main_v6) = destinations (F := Ideal) (U (Proc.devRef .tc main_arg1)) := by
  after_results_simp <;> (unfold_glue; rfl)
set_option maxHeartbeats 4000000 in
theorem stretch0_positive : StableHlo.after (hostOps0 (F := Ideal)) U (Proc.devRef .tc main_v12)
    = cmpf (F := Ideal) .ogt (degree (F := Ideal) (destinations (F := Ideal) (U (Proc.devRef .tc main_arg1))))
        (broadcastInDim Cert.ReferenceIdeal.S100000 ![] Cert.ReferenceIdeal.Facts₀.bcast_S_S100000 (constant (F := Ideal) Cert.ReferenceIdeal.S_ .f32 0x00000000#32)) := by
  after_results_simp <;> (unfold_glue; rfl)
set_option maxHeartbeats 4000000 in
theorem stretch0_rsqrt : StableHlo.after (hostOps0 (F := Ideal)) U (Proc.devRef .tc main_v15)
    = Host.rsqrt (F := Ideal) (maximumf (F := Ideal) (degree (F := Ideal) (destinations (F := Ideal) (U (Proc.devRef .tc main_arg1))))
        (broadcastInDim Cert.ReferenceIdeal.S100000 ![] Cert.ReferenceIdeal.Facts₀.bcast_S_S100000 (constant (F := Ideal) Cert.ReferenceIdeal.S_ .f32 0x3F800000#32))) := by
  after_results_simp <;> (unfold_glue; rfl)
set_option maxHeartbeats 4000000 in
theorem stretch0_zero : StableHlo.after (hostOps0 (F := Ideal)) U (Proc.devRef .tc main_cst_3) = constant (F := Ideal) Cert.ReferenceIdeal.S_ .f32 0x00000000#32 := by
  after_results_simp <;> (unfold_glue; rfl)

set_option maxHeartbeats 4000000 in
theorem stretch01_invSqrt : StableHlo.after (hostOps0_1 (F := Ideal)) U (Proc.devRef .tc main_v16)
    = select (U (Proc.devRef .tc main_v12)) (U (Proc.devRef .tc main_v15))
        (broadcastInDim Cert.ReferenceIdeal.S100000 ![] Cert.ReferenceIdeal.Facts₀.bcast_S_S100000 (id (U (Proc.devRef .tc main_cst_3)))) := by
  after_results_simp <;> (unfold_glue; rfl)

set_option maxHeartbeats 4000000 in
theorem stretch02_weights : StableHlo.after (hostOps0_2 (F := Ideal)) U (Proc.devRef .tc main_v31)
    = mulf (F := Ideal) (φ := .f32) (Host.gather Cert.ReferenceIdeal.gather_S100000_S3300000x1_S3300000_n_0_n_n_0_1_1 (U (Proc.devRef .tc main_v16)) (wrapIndex (F := Ideal) (U (Proc.devRef .tc main_v3))))
        (Host.gather Cert.ReferenceIdeal.gather_S100000_S3300000x1_S3300000_n_0_n_n_0_1_1 (U (Proc.devRef .tc main_v16)) (wrapIndex (F := Ideal) (U (Proc.devRef .tc main_v6)))) := by
  after_results_simp <;> (unfold_glue; rfl)

set_option maxHeartbeats 4000000 in
theorem stretch1_propagate : StableHlo.after (hostOps1 (F := Ideal)) U (Proc.devRef .tc main_v45)
    = propagate16 (F := Ideal) (U (Proc.devRef .tc main_v32)) (U (Proc.devRef .tc main_v3)) (U (Proc.devRef .tc main_v6)) (U (Proc.devRef .tc main_v31)) := by
  after_results_simp <;> (unfold_glue; rfl)
set_option maxHeartbeats 4000000 in
theorem stretch1_biasRow : StableHlo.after (hostOps1 (F := Ideal)) U (Proc.devRef .tc main_v46)
    = shapeCast S1x16 (U (Proc.devRef .tc main_arg3)) shapeCasts_S16_S1x16 := by
  after_results_simp <;> (unfold_glue; rfl)

set_option maxHeartbeats 4000000 in
theorem stretch2_propagate : StableHlo.after (hostOps2 (F := Ideal)) U (Proc.devRef .tc main_v60)
    = propagate40 (F := Ideal) (U (Proc.devRef .tc main_v47)) (U (Proc.devRef .tc main_v3)) (U (Proc.devRef .tc main_v6)) (U (Proc.devRef .tc main_v31)) := by
  after_results_simp <;> (unfold_glue; rfl)
set_option maxHeartbeats 4000000 in
theorem stretch2_biasRow : StableHlo.after (hostOps2 (F := Ideal)) U (Proc.devRef .tc main_v61)
    = shapeCast S1x40 (U (Proc.devRef .tc main_arg5)) shapeCasts_S40_S1x40 := by
  after_results_simp <;> (unfold_glue; rfl)

end Cert.GcnKernel

end
-- ==== Proof.KernelProducts.lean ====
/-
  The two block products of the kernel, read at an entry.
  At the exact values a narrowing of the float format is the identity and a product accumulated into zeros has no
  accumulator term, so entry (p, q) of a block product is  Σ_k x(p, k) · w(k, q)  over the contracted coordinate.
-/
import proofs.«126225_j51616916963867_1_alg».proof.Proof.Gen.KernelIdeal
import Idealize.ShloMosaic.Lib.ValueIdx
import Idealize.ShloMosaic.Lib.Pipeline.Value
import Idealize.ShloMosaic.PureOps.Ideal.Laws

noncomputable section

namespace Cert.GcnKernel

open Cert.KernelIdeal Cert.KernelIdeal.Facts₀ Cert.KernelIdeal.Gen Idealize.ShloMosaic Idealize.ShloMosaic.TcCoe Idealize.ShloMosaic.ValueIdx

theorem blockProduct1_l0 (j : S10000x16.Idx) (q : dot_S10000x128_S128x16_S10000x16_1_0_0_1_n_n.contr.Idx) : (dot_S10000x128_S128x16_S10000x16_1_0_0_1_n_n.lhsIdx j q 0).val = (j 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem blockProduct1_r1 (j : S10000x16.Idx) (q : dot_S10000x128_S128x16_S10000x16_1_0_0_1_n_n.contr.Idx) : (dot_S10000x128_S128x16_S10000x16_1_0_0_1_n_n.rhsIdx j q 1).val = (j 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl
/-- Entry (p, q) of the product is the sum over the contracted coordinate k of row p of the left factor at k times column q of the right factor at k. -/
theorem blockProduct1 (x : FVec Ideal S10000x128 .f32) (w : FVec Ideal S128x16 .f32) (hb : FTy.bits .bf16 < FTy.bits .f32) (j : S10000x16.Idx) :
    matmul dot_S10000x128_S128x16_S10000x16_1_0_0_1_n_n none (truncf .bf16 x hb) (truncf .bf16 w hb) (constant S10000x16 .f32 0x00000000#32) j
      = ∑ k : Fin 128, x (ix2 (⟨(j 0).val, (j 0).isLt⟩ : Fin 10000) k) * w (ix2 k (⟨(j 1).val, (j 1).isLt⟩ : Fin 16)) := by
  simp only [matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx j ((contrEquiv1 dot_S10000x128_S128x16_S10000x16_1_0_0_1_n_n 128 rfl rfl).symm k) = ix2 (⟨(j 0).val, (j 0).isLt⟩ : Fin 10000) k := funext fun a => Fin.ext (by
    match a with
    | ⟨0, _⟩ => exact blockProduct1_l0 _ _
    | ⟨1, _⟩ => exact (dot_S10000x128_S128x16_S10000x16_1_0_0_1_n_n.lhsIdx_val_of_single rfl j _).trans hk)
  have er : dot_S10000x128_S128x16_S10000x16_1_0_0_1_n_n.rhsIdx j ((contrEquiv1 dot_S10000x128_S128x16_S10000x16_1_0_0_1_n_n 128 rfl rfl).symm k) = ix2 k (⟨(j 1).val, (j 1).isLt⟩ : Fin 16) := funext fun a => Fin.ext (by
    match a with
    | ⟨0, _⟩ => exact (dot_S10000x128_S128x16_S10000x16_1_0_0_1_n_n.rhsIdx_val_of_single rfl j _).trans hk
    | ⟨1, _⟩ => exact blockProduct1_r1 _ _)
  show x _ * w _ = _
  rw [el, er]

theorem blockProduct2_l0 (j : S10000x40.Idx) (q : dot_S10000x16_S16x40_S10000x40_1_0_0_1_n_n.contr.Idx) : (dot_S10000x16_S16x40_S10000x40_1_0_0_1_n_n.lhsIdx j q 0).val = (j 0).val := by
  unfold DotDims.lhsIdx
  rw [dif_neg (show ¬(0 : Fin S10000x16.rank) ∈ dot_S10000x16_S16x40_S10000x40_1_0_0_1_n_n.lhsBatch by decide), dif_pos (show (0 : Fin S10000x16.rank) ∈ dot_S10000x16_S16x40_S10000x40_1_0_0_1_n_n.lhsNonContracting by decide)]
  rfl
theorem blockProduct2_r1 (j : S10000x40.Idx) (q : dot_S10000x16_S16x40_S10000x40_1_0_0_1_n_n.contr.Idx) : (dot_S10000x16_S16x40_S10000x40_1_0_0_1_n_n.rhsIdx j q 1).val = (j 1).val := by
  unfold DotDims.rhsIdx
  rw [dif_neg (show ¬(1 : Fin S16x40.rank) ∈ dot_S10000x16_S16x40_S10000x40_1_0_0_1_n_n.rhsBatch by decide), dif_pos (show (1 : Fin S16x40.rank) ∈ dot_S10000x16_S16x40_S10000x40_1_0_0_1_n_n.rhsNonContracting by decide)]
  rfl
/-- Entry (p, q) of the product is the sum over the contracted coordinate k of row p of the left factor at k times column q of the right factor at k. -/
theorem blockProduct2 (x : FVec Ideal S10000x16 .f32) (w : FVec Ideal S16x40 .f32) (hb : FTy.bits .bf16 < FTy.bits .f32) (j : S10000x40.Idx) :
    matmul dot_S10000x16_S16x40_S10000x40_1_0_0_1_n_n none (truncf .bf16 x hb) (truncf .bf16 w hb) (constant S10000x40 .f32 0x00000000#32) j
      = ∑ k : Fin 16, x (ix2 (⟨(j 0).val, (j 0).isLt⟩ : Fin 10000) k) * w (ix2 k (⟨(j 1).val, (j 1).isLt⟩ : Fin 40)) := by
  simp only [matmul]
  rw [Ideal.matmul_constant_zero_apply, ← Equiv.sum_comp (contrEquiv1 dot_S10000x16_S16x40_S10000x40_1_0_0_1_n_n 16 rfl rfl).symm]
  refine Finset.sum_congr rfl fun k _ => ?_
  have hk := contrEquiv1_symm_val dot_S10000x16_S16x40_S10000x40_1_0_0_1_n_n 16 rfl rfl k
  have el : dot_S10000x16_S16x40_S10000x40_1_0_0_1_n_n.lhsIdx j ((contrEquiv1 dot_S10000x16_S16x40_S10000x40_1_0_0_1_n_n 16 rfl rfl).symm k) = ix2 (⟨(j 0).val, (j 0).isLt⟩ : Fin 10000) k := funext fun a => Fin.ext (by
    match a with
    | ⟨0, _⟩ => exact blockProduct2_l0 _ _
    | ⟨1, _⟩ => exact (dot_S10000x16_S16x40_S10000x40_1_0_0_1_n_n.lhsIdx_val_of_single rfl j _).trans hk)
  have er : dot_S10000x16_S16x40_S10000x40_1_0_0_1_n_n.rhsIdx j ((contrEquiv1 dot_S10000x16_S16x40_S10000x40_1_0_0_1_n_n 16 rfl rfl).symm k) = ix2 k (⟨(j 1).val, (j 1).isLt⟩ : Fin 40) := funext fun a => Fin.ext (by
    match a with
    | ⟨0, _⟩ => exact (dot_S10000x16_S16x40_S10000x40_1_0_0_1_n_n.rhsIdx_val_of_single rfl j _).trans hk
    | ⟨1, _⟩ => exact blockProduct2_r1 _ _)
  show x _ * w _ = _
  rw [el, er]

end Cert.GcnKernel

end
-- ==== Proof.Spec.lean ====
/-
  The three dense stages of the network as functions of whole arrays, entry by entry, over the extended reals.

  Each stage works row by row: row r of its result depends on row r of the node array and on the small arrays
  (weights, bias) only. That is why a stage computed on blocks of 10000 rows and the same stage computed on all
  100000 rows at once agree: block t of the result is the stage applied to block t of the node array.
    * rowsProduct x w       (p, q) ↦ Σ_k x(p, k) · w(k, q)
    * hiddenRow / layer2    h(p, k) = max (a(p, k) + b(k)) 0,  then the product of h with w
    * logSoftmaxRows        z(p, q) = a(p, q) + b(q),  M(p) = max_q z(p, q),  (z(p, q) − M(p)) − log Σ_q' exp (z(p, q') − M(p))
-/
import Idealize.ShloMosaic.Lib.ValueIdx
import Idealize.ShloMosaic.PureOps.Ideal.Laws

noncomputable section

namespace Cert.Gcn

open Idealize.ShloMosaic Idealize.ShloMosaic.ValueIdx

/-- A coordinate of a rank-2 index, as a number below the literal extent. -/
abbrev row {A N : Nat} (i : (⟨2, ![A, N]⟩ : Shape).Idx) : Fin A := ⟨(i 0).val, (i 0).isLt⟩
abbrev col {A N : Nat} (i : (⟨2, ![A, N]⟩ : Shape).Idx) : Fin N := ⟨(i 1).val, (i 1).isLt⟩

/-- The product of an [A, K] array with a [K, N] array: entry (p, q) is Σ_k x(p, k) · w(k, q). -/
def rowsProduct {A K N : Nat} (x : (⟨2, ![A, K]⟩ : Shape).Idx → EReal) (w : (⟨2, ![K, N]⟩ : Shape).Idx → EReal) :
    (⟨2, ![A, N]⟩ : Shape).Idx → EReal :=
  fun i => ∑ k : Fin K, x (ix2 (row i) k) * w (ix2 k (col i))

/-- The hidden layer: the bias (a one-row array) added to every row, then the positive part. -/
def hiddenRows {A K : Nat} (a : (⟨2, ![A, K]⟩ : Shape).Idx → EReal) (b : (⟨2, ![1, K]⟩ : Shape).Idx → EReal) :
    (⟨2, ![A, K]⟩ : Shape).Idx → EReal :=
  fun i => max (a i + b (ix2 (0 : Fin 1) (col i))) (Ideal.ofBits .f32 0x00000000#32)

/-- The logits of a row: the bias (a one-row array) added to every row. -/
def logitRows {A N : Nat} (a : (⟨2, ![A, N]⟩ : Shape).Idx → EReal) (b : (⟨2, ![1, N]⟩ : Shape).Idx → EReal) :
    (⟨2, ![A, N]⟩ : Shape).Idx → EReal :=
  fun i => a i + b (ix2 (0 : Fin 1) (col i))

/-- A row's largest entry, folded from the value of the −∞ pattern. -/
def rowMax {A N : Nat} (z : (⟨2, ![A, N]⟩ : Shape).Idx → EReal) (p : Fin A) : EReal :=
  (Finset.univ : Finset (Fin N)).fold max (Ideal.ofBits .f32 0xFF800000#32) (fun q => z (ix2 p q))

/-- The log-softmax of every row of an array of logits: with M the row's largest entry,
    (z(p, q) − M) − log Σ_q' exp (z(p, q') − M). -/
def logSoftmaxRows {A N : Nat} (z : (⟨2, ![A, N]⟩ : Shape).Idx → EReal) : (⟨2, ![A, N]⟩ : Shape).Idx → EReal :=
  fun i => (z i - rowMax z (row i)) - Ideal.log (∑ q : Fin N, Ideal.exp (z (ix2 (row i) q) - rowMax z (row i)))

/-- A hidden-layer entry depends on the node entry and the bias entry only. -/
theorem hiddenRows_congr {A B K : Nat} (a : (⟨2, ![A, K]⟩ : Shape).Idx → EReal) (b : (⟨2, ![1, K]⟩ : Shape).Idx → EReal)
    (a' : (⟨2, ![B, K]⟩ : Shape).Idx → EReal) (b' : (⟨2, ![1, K]⟩ : Shape).Idx → EReal) (p : Fin A) (r : Fin B) (k : Fin K)
    (ha : a (ix2 p k) = a' (ix2 r k)) (hb : b (ix2 (0 : Fin 1) k) = b' (ix2 (0 : Fin 1) k)) :
    hiddenRows a b (ix2 p k) = hiddenRows a' b' (ix2 r k) := by
  unfold hiddenRows
  show max (a (ix2 p k) + b (ix2 (0 : Fin 1) k)) _ = max (a' (ix2 r k) + b' (ix2 (0 : Fin 1) k)) _
  rw [ha, hb]

/-- A logit depends on the node entry and the bias entry only. -/
theorem logitRows_congr {A B N : Nat} (a : (⟨2, ![A, N]⟩ : Shape).Idx → EReal) (b : (⟨2, ![1, N]⟩ : Shape).Idx → EReal)
    (a' : (⟨2, ![B, N]⟩ : Shape).Idx → EReal) (b' : (⟨2, ![1, N]⟩ : Shape).Idx → EReal) (p : Fin A) (r : Fin B) (q : Fin N)
    (ha : a (ix2 p q) = a' (ix2 r q)) (hb : b (ix2 (0 : Fin 1) q) = b' (ix2 (0 : Fin 1) q)) :
    logitRows a b (ix2 p q) = logitRows a' b' (ix2 r q) := by
  unfold logitRows
  show a (ix2 p q) + b (ix2 (0 : Fin 1) q) = a' (ix2 r q) + b' (ix2 (0 : Fin 1) q)
  rw [ha, hb]

/-- The log-softmax of a row depends on that row's logits only: two arrays whose rows p and r hold the same logits have
    the same log-softmax there. -/
theorem logSoftmaxRows_congr {A B N : Nat} (z : (⟨2, ![A, N]⟩ : Shape).Idx → EReal) (z' : (⟨2, ![B, N]⟩ : Shape).Idx → EReal)
    (p : Fin A) (r : Fin B) (q : Fin N) (h : ∀ q' : Fin N, z (ix2 p q') = z' (ix2 r q')) :
    logSoftmaxRows z (ix2 p q) = logSoftmaxRows z' (ix2 r q) := by
  have hm : rowMax z p = rowMax z' r := by
    unfold rowMax
    exact Finset.fold_congr fun q' _ => h q'
  unfold logSoftmaxRows
  show (z (ix2 p q) - rowMax z p) - Ideal.log (∑ q' : Fin N, Ideal.exp (z (ix2 p q') - rowMax z p))
      = (z' (ix2 r q) - rowMax z' r) - Ideal.log (∑ q' : Fin N, Ideal.exp (z' (ix2 r q') - rowMax z' r))
  rw [hm, h q]
  simp only [h]

/-! ## Row blocks

Block t of a [100000, N] array is its rows 10000·t … 10000·t + 9999. Each stage above commutes with taking a block of
rows of the node array, because row p of its result reads row p of that array only. -/

/-- Rows `o + p` of an array, as an array of its own. -/
def rowsFrom {A B N : Nat} (o : Nat) (h : o + B ≤ A) (x : (⟨2, ![A, N]⟩ : Shape).Idx → EReal) : (⟨2, ![B, N]⟩ : Shape).Idx → EReal :=
  fun j => x (ix2 (⟨o + (j 0).val, by have := (j 0).isLt; have e : (j 0).val < B := this; omega⟩ : Fin A) (col j))

end Cert.Gcn

end
-- ==== Proof.Region0.lean ====
/-
  Region 0 (the first layer's product). For ANY contents V of the buffers when the region is entered, the region
  leaves in its output array the product of its two input arrays:  out(r, q) = Σ_k x(r, k) · W1(k, q).

  Grid point t handles rows 10000·t … 10000·t + 9999: it is handed block t of x (those rows, all 128 columns) and the
  whole of W1, and writes back the block's product with W1. Since entry (p, q) of a product depends on row p of the
  left factor only, that block is rows 10000·t … of the product of the whole arrays; the ten blocks tile the output.
-/
import proofs.«126225_j51616916963867_1_alg».proof.Proof.Gen.KernelIdeal.Frame
import proofs.«126225_j51616916963867_1_alg».proof.Proof.KernelProducts
import proofs.«126225_j51616916963867_1_alg».proof.Proof.Spec
import Idealize.ShloMosaic.Lib.Pipeline.Value
import Idealize.ShloMosaic.Lib.ValueIdx

noncomputable section

set_option maxRecDepth 16384

namespace Cert.GcnKernel

open Cert.KernelIdeal Cert.KernelIdeal.Gen Cert.Gcn Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the ten grid points: the x window and the output window sit on the same block of rows,
    everything else at block 0, and the row-block number is the point's number (at most 9). -/
theorem indexMaps0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem indexOnto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the whole input arrays. -/
theorem flushed0_eq (c : Dev nD) (t : Fin cfg0.N) :
    (dat0 V c).flushed 2 t
      = ((cfg0.win 2).blk t).view.read (Elt Ideal) (rowsProduct (A := 100000) (K := 128) (N := 16) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x16) zeroOffsets]
  obtain ⟨e0, e1, e2, e3, e4, e5⟩ := indexMaps0 t
  funext j
  show k0_pay1 (iblk0 V c 0 t) (iblk0 V c 1 t) j
      = rowsProduct (A := 100000) (K := 128) (N := 16) (V c main_arg0) (V c main_arg2) (((cfg0.win 2).blk t).view.emb j)
  unfold k0_pay1
  refine (blockProduct1 (iblk0 V c 0 t) (iblk0 V c 1 t) _ j).trans ?_
  unfold rowsProduct
  refine Finset.sum_congr rfl fun k _ => ?_
  have hx : iblk0 V c 0 t (ix2 (⟨(j 0).val, (j 0).isLt⟩ : Fin 10000) k)
      = V c main_arg0 (ix2 (row (A := 100000) (N := 16) (((cfg0.win 2).blk t).view.emb j)) k) := by
    show V c main_arg0 (((cfg0.win 0).blk t).view.emb (ix2 (⟨(j 0).val, (j 0).isLt⟩ : Fin 10000) k)) = _
    congr 1
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : iblk0 V c 1 t (ix2 k (⟨(j 1).val, (j 1).isLt⟩ : Fin 16))
      = V c main_arg2 (ix2 k (col (A := 100000) (N := 16) (((cfg0.win 2).blk t).view.emb j))) := by
    show V c main_arg2 (((cfg0.win 1).blk t).view.emb (ix2 k (⟨(j 1).val, (j 1).isLt⟩ : Fin 16))) = _
    congr 1
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [hx, hw]

/-- An index of the output array lies in point t's block iff each coordinate lies in the block's range. -/
theorem memBlock0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- The ten blocks cover the output array: row r is in the block of point r / 10000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := indexOnto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [memBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- THE OUTPUT ARRAY after region 0, whatever the entry contents: the product of its two input arrays. -/
theorem region0_value (c : Dev nD) :
    (dat0 V c).arrAt 2 cfg0.N = rowsProduct (A := 100000) (K := 128) (N := 16) (V c main_arg0) (V c main_arg2) :=
  (dat0 V c).arrAt_eq_of_cover 2 _ (fun t _ => flushed0_eq V c t) cover0

end Cert.GcnKernel

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KernelPayloads.lean ====
/-
  What the bodies of regions 1 and 2 store, read at an entry of the block, as the stage functions of the loaded blocks.

  Region 1:  k1_pay1 a b w  is the product with w of  h(p, k) = max (a(p, k) + b(0, k)) 0 : the identity casts drop out, the
  one-row bias is broadcast down the rows, the narrowing of the format is the identity at the exact values.
  Region 2:  k2_pay1 a b  at (p, q) is  (z(p, q) − M(p)) − log Σ_q' exp (z(p, q') − M(p))  with  z = a + bias row  and M(p) the
  fold of max over row p from the −∞ pattern: the lane maximum and the lane sum are folds over the 40 entries of the row,
  and the [10000] → [10000, 1] → [10000, 40] cast-and-broadcast hands row p its own maximum (its own log-sum).
-/
import proofs.«126225_j51616916963867_1_alg».proof.Proof.Gen.KernelIdeal.Skeleton
import proofs.«126225_j51616916963867_1_alg».proof.Proof.KernelProducts
import proofs.«126225_j51616916963867_1_alg».proof.Proof.Spec
import proofs.«126225_j51616916963867_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.GcnKernel

open Cert.KernelIdeal Cert.KernelIdeal.Gen Cert.Gcn Idealize.ShloMosaic Idealize.ShloMosaic.TcCoe Idealize.ShloMosaic.ValueIdx

/-- Region 1's hidden block: the bias row added to every row of the block, then the positive part. -/
theorem hidden_apply (a : FVec Ideal S10000x16 .f32) (b : FVec Ideal S1x16 .f32) (p : Fin 10000) (k : Fin 16) :
    maximumf (addf (shapeCast S10000x16 a shapeCasts_S10000x16_S10000x16) (broadcastTo S10000x16 (shapeCast S1x16 b shapeCasts_S1x16_S1x16) broadcasts_S1x16_S10000x16))
      (broadcast S10000x16 (Scalar.ofBits (F := Ideal) .f32 0x00000000#32)) (ix2 p k)
      = hiddenRows (A := 10000) (K := 16) a b (ix2 p k) := by
  rw [shapeCast_self, shapeCast_self]
  show max (a (ix2 p k) + broadcastTo S10000x16 b broadcasts_S1x16_S10000x16 (ix2 p k)) _ = _
  rw [broadcastTo_1b_ab_apply]
  rfl

/-- Region 1's store at (p, q): the product of the hidden block with w. -/
theorem payload1_apply (a : FVec Ideal S10000x16 .f32) (b : FVec Ideal S1x16 .f32) (w : FVec Ideal S16x40 .f32) (j : S10000x40.Idx) :
    k1_pay1 (F := Ideal) a b w j = rowsProduct (A := 10000) (K := 16) (N := 40) (hiddenRows (A := 10000) (K := 16) a b) w j := by
  unfold k1_pay1
  refine (blockProduct2 _ w _ j).trans ?_
  unfold rowsProduct
  refine Finset.sum_congr rfl fun k _ => ?_
  rw [hidden_apply a b ⟨(j 0).val, (j 0).isLt⟩ k]

/-! ## Region 2 -/

/-- The logits of a block: the bias row added to every row. -/
theorem logits_apply (a : FVec Ideal S10000x40 .f32) (b : FVec Ideal S1x40 .f32) (p : Fin 10000) (q : Fin 40) :
    addf (shapeCast S10000x40 a shapeCasts_S10000x40_S10000x40) (broadcastTo S10000x40 (shapeCast S1x40 b shapeCasts_S1x40_S1x40) broadcasts_S1x40_S10000x40) (ix2 p q)
      = logitRows (A := 10000) (N := 40) a b (ix2 p q) := by
  rw [shapeCast_self, shapeCast_self]
  show a (ix2 p q) + broadcastTo S10000x40 b broadcasts_S1x40_S10000x40 (ix2 p q) = _
  rw [broadcastTo_1b_ab_apply]
  rfl

/-- The index a lane reduction reads: row p, lane q. -/
theorem lane_lift (p : Fin 10000) (q : Fin 40) : reduces_S10000x40_S10000.lift (ix1 p) q = ix2 p q :=
  funext fun a => Fin.ext (by match a with | ⟨0, _⟩ => rfl | ⟨1, _⟩ => rfl)

/-- A row's lane maximum, from the −∞ pattern: the fold of max over the row's 40 entries. -/
theorem laneMax_apply (z : FVec Ideal S10000x40 .f32) (hφ : FKind.Formats .f32) (hacc : (0xFF800000#32 : BitVec 32) = 0xFF800000#32) (p : Fin 10000) :
    multiReduction .maximumf [1] S10000 z 0xFF800000#32 reduces_S10000x40_S10000 hφ hacc (ix1 p) = rowMax (A := 10000) (N := 40) z p := by
  refine (Ideal.multiReduction_maximumf_single z 0xFF800000#32 reduces_S10000x40_S10000 hφ hacc (ix1 p)).trans ?_
  unfold rowMax
  exact Finset.fold_congr fun q _ => congrArg z (lane_lift p q)

/-- A row's lane sum: the sum over the row's 40 entries. -/
theorem laneSum_apply (z : FVec Ideal S10000x40 .f32) (hφ : FKind.Formats .f32) (hacc : (0x00000000#32 : BitVec 32) = 0x00000000#32) (p : Fin 10000) :
    multiReduction .add [1] S10000 z 0x00000000#32 reduces_S10000x40_S10000 hφ hacc (ix1 p) = ∑ q : Fin 40, z (ix2 p q) := by
  refine (Ideal.multiReduction_add_single z 0x00000000#32 reduces_S10000x40_S10000 hφ hacc (ix1 p)).trans ?_
  exact Finset.sum_congr rfl fun q _ => congrArg z (lane_lift p q)

/-- One number per row, as a column, then along the row: every entry of row p reads row p's number. -/
theorem column_apply (v : FVec Ideal S10000 .f32) (p : Fin 10000) (q : Fin 40) :
    broadcastTo S10000x40 (shapeCast S10000x1 v shapeCasts_S10000_S10000x1) broadcasts_S10000x1_S10000x40 (ix2 p q) = v (ix1 p) := by
  rw [Cert.LibLayout.broadcastTo_a1_ab_apply]
  exact shapeCast_apply v shapeCasts_S10000_S10000x1 (ix2 p (0 : Fin 1)) (ix1 p) (by
    rw [Shape.rowMajor_val_two, Shape.rowMajor_val_one]; show p.val = p.val * 1 + 0; omega)

/-- The logits of a block, as a function. -/
theorem logits_eq (a : FVec Ideal S10000x40 .f32) (b : FVec Ideal S1x40 .f32) :
    addf (shapeCast S10000x40 a shapeCasts_S10000x40_S10000x40) (broadcastTo S10000x40 (shapeCast S1x40 b shapeCasts_S1x40_S1x40) broadcasts_S1x40_S10000x40)
      = logitRows (A := 10000) (N := 40) a b :=
  funext fun j => by
    obtain ⟨p, q, rfl⟩ : ∃ (p : Fin 10000) (q : Fin 40), j = ix2 p q := ⟨j 0, j 1, eq_ix2 j⟩
    exact logits_apply a b p q

/-- The shifted logits of a block, as a function: every entry minus its row's maximum. -/
theorem shifted_eq (z : FVec Ideal S10000x40 .f32) (hφ : FKind.Formats .f32) (hacc : (0xFF800000#32 : BitVec 32) = 0xFF800000#32) :
    subf z (broadcastTo S10000x40 (shapeCast S10000x1 (multiReduction .maximumf [1] S10000 z 0xFF800000#32 reduces_S10000x40_S10000 hφ hacc) shapeCasts_S10000_S10000x1) broadcasts_S10000x1_S10000x40)
      = fun i => z i - rowMax (A := 10000) (N := 40) z (row i) :=
  funext fun i => by
    obtain ⟨p, q, rfl⟩ : ∃ (p : Fin 10000) (q : Fin 40), i = ix2 p q := ⟨i 0, i 1, eq_ix2 i⟩
    rw [subf_apply, column_apply, laneMax_apply]

/-- The log of one number per row, as a column, then along the row: every entry of row p reads the log of row p's number
    (taking the log of each entry of the column is taking it of each number). -/
theorem column_log_apply (v : FVec Ideal S10000 .f32) (p : Fin 10000) (q : Fin 40) :
    broadcastTo S10000x40 (log (shapeCast S10000x1 v shapeCasts_S10000_S10000x1)) broadcasts_S10000x1_S10000x40 (ix2 p q) = Ideal.log (v (ix1 p)) :=
  column_apply (log v) p q

/-- Region 2's store at (p, q): the log-softmax of row p of the logits, at q. -/
theorem payload2_apply (a : FVec Ideal S10000x40 .f32) (b : FVec Ideal S1x40 .f32) (p : Fin 10000) (q : Fin 40) :
    k2_pay1 (F := Ideal) a b (ix2 p q) = logSoftmaxRows (A := 10000) (N := 40) (logitRows (A := 10000) (N := 40) a b) (ix2 p q) := by
  unfold k2_pay1
  rw [logits_eq, shifted_eq, subf_apply, column_log_apply, laneSum_apply]
  rfl

end Cert.GcnKernel

end
-- ==== Proof.Region1.lean ====
/-
  Region 1 (bias, positive part, the second layer's product). For ANY contents V of the buffers when the region is
  entered, it leaves in its output array   out(r, q) = Σ_k max (a(r, k) + b(0, k)) 0 · W2(k, q)   of its input arrays:
  the node array a ([100000, 16]), the bias as a one-row array b ([1, 16]) and W2 ([16, 40]).

  Grid point t is handed rows 10000·t … of a and the whole of b and W2, and writes back rows 10000·t … of the result;
  row p of the result reads row p of a only, so the ten blocks are the blocks of one whole-array function, and they
  tile the output.
-/
import proofs.«126225_j51616916963867_1_alg».proof.Proof.Gen.KernelIdeal.Frame
import proofs.«126225_j51616916963867_1_alg».proof.Proof.KernelPayloads
import proofs.«126225_j51616916963867_1_alg».proof.Proof.Spec
import Idealize.ShloMosaic.Lib.Pipeline.Value
import Idealize.ShloMosaic.Lib.ValueIdx

noncomputable section

set_option maxRecDepth 16384

namespace Cert.GcnKernel

open Cert.KernelIdeal Cert.KernelIdeal.Gen Cert.Gcn Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the ten grid points: the node window and the output window sit on the same block of rows,
    the bias and the weights at block 0, and the row-block number is at most 9. -/
theorem indexMaps1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem indexOnto1 : ∀ q0 : Fin 10, ∃ t : Fin cfg1.N, win1_3.index t = ![q0.val, 0] :=
  (by decide +kernel : ∀ q0 : Fin 10, ∃ t : Fin grid1.N, win1_3.index t = ![q0.val, 0])

/-- What point t writes back is block t of the stage applied to the whole input arrays. -/
theorem flushed1_eq (c : Dev nD) (t : Fin cfg1.N) :
    (dat1 V c).flushed 3 t
      = ((cfg1.win 3).blk t).view.read (Elt Ideal)
          (rowsProduct (A := 100000) (K := 16) (N := 40) (hiddenRows (A := 100000) (K := 16) (V c main_v45) (V c main_v46)) (V c main_arg4)) := by
  show (cfg1.win 3).cut (grid1.coords t) ((dat1 V c).after 3 t) = _
  rw [after1_3]
  unfold out1_3
  rw [View.canon_unit_zero zeroOffsets1]
  simp only [View.ld_unit_zero (S := S10000x16) zeroOffsets1, View.ld_unit_zero (S := S1x16) zeroOffsets1, View.ld_unit_zero (S := S16x40) zeroOffsets1]
  obtain ⟨e0, e1, e2, e3, e4, e5, e6, e7⟩ := indexMaps1 t
  funext j
  show k1_pay1 (iblk1 V c 0 t) (iblk1 V c 1 t) (iblk1 V c 2 t) j
      = rowsProduct (A := 100000) (K := 16) (N := 40) (hiddenRows (A := 100000) (K := 16) (V c main_v45) (V c main_v46)) (V c main_arg4)
          (((cfg1.win 3).blk t).view.emb j)
  refine (payload1_apply (iblk1 V c 0 t) (iblk1 V c 1 t) (iblk1 V c 2 t) j).trans ?_
  unfold rowsProduct
  refine Finset.sum_congr rfl fun k _ => ?_
  have ha : iblk1 V c 0 t (ix2 (⟨(j 0).val, (j 0).isLt⟩ : Fin 10000) k)
      = V c main_v45 (ix2 (row (A := 100000) (N := 40) (((cfg1.win 3).blk t).view.emb j)) k) := by
    show V c main_v45 (((cfg1.win 0).blk t).view.emb (ix2 (⟨(j 0).val, (j 0).isLt⟩ : Fin 10000) k)) = _
    congr 1
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * k.val = k.val; omega
  have hb : iblk1 V c 1 t (ix2 (0 : Fin 1) k) = V c main_v46 (ix2 (0 : Fin 1) k) := by
    show V c main_v46 (((cfg1.win 1).blk t).view.emb (ix2 (0 : Fin 1) k)) = _
    congr 1
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have hw : iblk1 V c 2 t (ix2 k (⟨(j 1).val, (j 1).isLt⟩ : Fin 40))
      = V c main_arg4 (ix2 k (col (A := 100000) (N := 40) (((cfg1.win 3).blk t).view.emb j))) := by
    show V c main_arg4 (((cfg1.win 2).blk t).view.emb (ix2 k (⟨(j 1).val, (j 1).isLt⟩ : Fin 40))) = _
    congr 1
    funext a; apply Fin.ext
    match a with
    | ⟨0, _⟩ => show win1_2.index t (0 : Fin 2) * 16 + 1 * k.val = k.val; omega
    | ⟨1, _⟩ => show win1_2.index t (1 : Fin 2) * 40 + 1 * (j 1).val = win1_3.index t (1 : Fin 2) * 40 + 1 * (j 1).val; omega
  exact congrArg₂ (· * ·)
    (hiddenRows_congr (A := 10000) (B := 100000) (K := 16) (iblk1 V c 0 t) (iblk1 V c 1 t) (V c main_v45) (V c main_v46)
      (⟨(j 0).val, (j 0).isLt⟩ : Fin 10000) (row (A := 100000) (N := 40) (((cfg1.win 3).blk t).view.emb j)) k ha hb)
    hw

/-- An index of the output array lies in point t's block iff each coordinate lies in the block's range. -/
theorem memBlock1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v47).slice (win1_3.rect t)).set ↔ _
  rw [View.set_slice_whole, Rect.mem_set_unit]
  exact Iff.rfl

/-- The ten blocks cover the output array: row r is in the block of point r / 10000. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := indexOnto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [memBlock1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 40 ≤ (i 1).val ∧ (i 1).val < win1_3.index t (1 : Fin 2) * 40 + 40; omega

/-- THE OUTPUT ARRAY after region 1, whatever the entry contents. -/
theorem region1_value (c : Dev nD) :
    (dat1 V c).arrAt 3 cfg1.N
      = rowsProduct (A := 100000) (K := 16) (N := 40) (hiddenRows (A := 100000) (K := 16) (V c main_v45) (V c main_v46)) (V c main_arg4) :=
  (dat1 V c).arrAt_eq_of_cover 3 _ (fun t _ => flushed1_eq V c t) cover1

end Cert.GcnKernel

end
-- ==== Proof.Region2.lean ====
/-
  Region 2 (bias and log-softmax). For ANY contents V of the buffers when the region is entered, it leaves in its
  output array the log-softmax of every row of  z = a + bias row :
      out(r, q) = (z(r, q) − M(r)) − log Σ_q' exp (z(r, q') − M(r)),   M(r) the largest entry of row r.

  Grid point t is handed rows 10000·t … of the node array a ([100000, 40]) and the one-row bias, and writes back the
  log-softmax of those rows; a row's log-softmax reads that row only, so the ten blocks are the blocks of one
  whole-array function, and they tile the output.
-/
import proofs.«126225_j51616916963867_1_alg».proof.Proof.Gen.KernelIdeal.Frame
import proofs.«126225_j51616916963867_1_alg».proof.Proof.KernelPayloads
import proofs.«126225_j51616916963867_1_alg».proof.Proof.Spec
import Idealize.ShloMosaic.Lib.Pipeline.Value
import Idealize.ShloMosaic.Lib.ValueIdx

noncomputable section

set_option maxRecDepth 16384

namespace Cert.GcnKernel

open Cert.KernelIdeal Cert.KernelIdeal.Gen Cert.Gcn Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The printed index maps over the ten grid points: the node window and the output window sit on the same block of rows,
    the bias at block 0, and the row-block number is at most 9. -/
theorem indexMaps2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem indexOnto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t of the log-softmax of the whole array's logits. -/
theorem flushed2_eq (c : Dev nD) (t : Fin cfg2.N) :
    (dat2 V c).flushed 2 t
      = ((cfg2.win 2).blk t).view.read (Elt Ideal)
          (logSoftmaxRows (A := 100000) (N := 40) (logitRows (A := 100000) (N := 40) (V c main_v60) (V c main_v61))) := by
  show (cfg2.win 2).cut (grid2.coords t) ((dat2 V c).after 2 t) = _
  rw [after2_2]
  unfold out2_2
  rw [View.canon_unit_zero zeroOffsets2]
  simp only [View.ld_unit_zero (S := S10000x40) zeroOffsets2, View.ld_unit_zero (S := S1x40) zeroOffsets2]
  obtain ⟨e0, e1, e2, e3, e4, e5⟩ := indexMaps2 t
  funext j
  obtain ⟨p, q, rfl⟩ : ∃ (p : Fin 10000) (q : Fin 40), j = ix2 p q := ⟨j 0, j 1, eq_ix2 j⟩
  show k2_pay1 (iblk2 V c 0 t) (iblk2 V c 1 t) (ix2 p q)
      = logSoftmaxRows (A := 100000) (N := 40) (logitRows (A := 100000) (N := 40) (V c main_v60) (V c main_v61)) (((cfg2.win 2).blk t).view.emb (ix2 p q))
  refine (payload2_apply (iblk2 V c 0 t) (iblk2 V c 1 t) p q).trans ?_
  -- row p of the block is row 10000·(block number) + p of the array
  have hlt : win2_2.index t (0 : Fin 2) * 10000 + 1 * p.val < 100000 := by have := p.isLt; omega
  have hR : ((cfg2.win 2).blk t).view.emb (ix2 p q) = ix2 (⟨win2_2.index t (0 : Fin 2) * 10000 + 1 * p.val, hlt⟩ : Fin 100000) q := by
    funext a; apply Fin.ext
    match a with
    | ⟨0, _⟩ => rfl
    | ⟨1, _⟩ => show win2_2.index t (1 : Fin 2) * 40 + 1 * q.val = q.val; omega
  have hrow : ∀ q' : Fin 40, logitRows (A := 10000) (N := 40) (iblk2 V c 0 t) (iblk2 V c 1 t) (ix2 p q')
      = logitRows (A := 100000) (N := 40) (V c main_v60) (V c main_v61) (ix2 (⟨win2_2.index t (0 : Fin 2) * 10000 + 1 * p.val, hlt⟩ : Fin 100000) q') := by
    intro q'
    have ha : iblk2 V c 0 t (ix2 p q') = V c main_v60 (ix2 (⟨win2_2.index t (0 : Fin 2) * 10000 + 1 * p.val, hlt⟩ : Fin 100000) q') := by
      show V c main_v60 (((cfg2.win 0).blk t).view.emb (ix2 p q')) = _
      congr 1
      funext a; apply Fin.ext
      match a with
      | ⟨0, _⟩ => show win2_0.index t (0 : Fin 2) * 10000 + 1 * p.val = win2_2.index t (0 : Fin 2) * 10000 + 1 * p.val; omega
      | ⟨1, _⟩ => show win2_0.index t (1 : Fin 2) * 40 + 1 * q'.val = q'.val; omega
    have hb : iblk2 V c 1 t (ix2 (0 : Fin 1) q') = V c main_v61 (ix2 (0 : Fin 1) q') := by
      show V c main_v61 (((cfg2.win 1).blk t).view.emb (ix2 (0 : Fin 1) q')) = _
      congr 1
      funext a; apply Fin.ext
      match a with
      | ⟨0, _⟩ => show win2_1.index t (0 : Fin 2) * 1 + 1 * 0 = 0; omega
      | ⟨1, _⟩ => show win2_1.index t (1 : Fin 2) * 40 + 1 * q'.val = q'.val; omega
    exact logitRows_congr (A := 10000) (B := 100000) (N := 40) (iblk2 V c 0 t) (iblk2 V c 1 t) (V c main_v60) (V c main_v61) p
      (⟨win2_2.index t (0 : Fin 2) * 10000 + 1 * p.val, hlt⟩ : Fin 100000) q' ha hb
  rw [hR]
  exact logSoftmaxRows_congr (A := 10000) (B := 100000) (N := 40) (logitRows (A := 10000) (N := 40) (iblk2 V c 0 t) (iblk2 V c 1 t))
    (logitRows (A := 100000) (N := 40) (V c main_v60) (V c main_v61)) p (⟨win2_2.index t (0 : Fin 2) * 10000 + 1 * p.val, hlt⟩ : Fin 100000) q hrow

/-- An index of the output array lies in point t's block iff each coordinate lies in the block's range. -/
theorem memBlock2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v62).slice (win2_2.rect t)).set ↔ _
  rw [View.set_slice_whole, Rect.mem_set_unit]
  exact Iff.rfl

/-- The ten blocks cover the output array: row r is in the block of point r / 10000. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := indexOnto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [memBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- THE OUTPUT ARRAY after region 2, whatever the entry contents. -/
theorem region2_value (c : Dev nD) :
    (dat2 V c).arrAt 2 cfg2.N
      = logSoftmaxRows (A := 100000) (N := 40) (logitRows (A := 100000) (N := 40) (V c main_v60) (V c main_v61)) :=
  (dat2 V c).arrAt_eq_of_cover 2 _ (fun t _ => flushed2_eq V c t) cover2

end Cert.GcnKernel

end
-- ==== Proof.KernelFold.lean ====
/-
  The contents of the buffers that matter at each boundary of the kernel program's @main, and from them what the result
  buffer ends holding, as a function of @main's six arguments:

      log-softmax rows of  ( propagate ( max ( propagate (x · W1) + b1 ) 0 · W2 ) + b2 )

  with the graph side (sources, destinations, edge weights, propagate) carried by name. Boundary W1 follows the first host
  stretch, W2 the outlined "where", W3 the rest of the graph side, W4 region 0, W5 the second host stretch, W6 region 1,
  W7 the third host stretch, W8 region 2. The graph arrays are written once, before region 0, and nothing later writes
  them: that is what the "kept" steps say.
-/
import proofs.«126225_j51616916963867_1_alg».proof.Proof.KernelStretches
import proofs.«126225_j51616916963867_1_alg».proof.Proof.Region0
import proofs.«126225_j51616916963867_1_alg».proof.Proof.Region1
import proofs.«126225_j51616916963867_1_alg».proof.Proof.Region2
import proofs.«126225_j51616916963867_1_alg».proof.Proof.Spec

noncomputable section

set_option maxRecDepth 16384

namespace Cert.GcnKernel

open Cert.KernelIdeal Cert.KernelIdeal.Gen Cert.Gcn Idealize.ShloMosaic Idealize.ShloMosaic.TcCoe Idealize.SL.Sem Idealize.ShloMosaic.StableHlo
open Cert.GcnReference (sources destinations wrapIndex degree invSqrtDegree edgeWeights propagate16 propagate40)

variable (m : (ℓ : Loc nD τ sig) → Buf (Elt Ideal) ℓ) (ρ : Dev nD → PrngReg) (c : Dev nD)

/-! ## The graph side: boundaries W1, W2, W3 -/

theorem w1_sources : W1 m ρ c (Proc.devRef .tc main_v3) = sources (F := Ideal) (m ((c : Thread nD τ).loc main_arg1)) :=
  stretch0_sources (W0 m ρ c)
theorem w1_destinations : W1 m ρ c (Proc.devRef .tc main_v6) = destinations (F := Ideal) (m ((c : Thread nD τ).loc main_arg1)) :=
  stretch0_destinations (W0 m ρ c)

theorem w2_sources : W2 m ρ c (Proc.devRef .tc main_v3) = sources (F := Ideal) (m ((c : Thread nD τ).loc main_arg1)) :=
  Eq.trans (by kept_by hostOps0_1) (w1_sources m ρ c)
theorem w2_destinations : W2 m ρ c (Proc.devRef .tc main_v6) = destinations (F := Ideal) (m ((c : Thread nD τ).loc main_arg1)) :=
  Eq.trans (by kept_by hostOps0_1) (w1_destinations m ρ c)
theorem w2_invSqrt : W2 m ρ c (Proc.devRef .tc main_v16) = invSqrtDegree (F := Ideal) (destinations (F := Ideal) (m ((c : Thread nD τ).loc main_arg1))) := by
  have h := stretch01_invSqrt (W1 m ρ c)
  rw [show W1 m ρ c (Proc.devRef .tc main_v12) = _ from stretch0_positive (W0 m ρ c),
      show W1 m ρ c (Proc.devRef .tc main_v15) = _ from stretch0_rsqrt (W0 m ρ c),
      show W1 m ρ c (Proc.devRef .tc main_cst_3) = _ from stretch0_zero (W0 m ρ c)] at h
  unfold invSqrtDegree
  exact h

theorem w3_sources : W3 m ρ c (Proc.devRef .tc main_v3) = sources (F := Ideal) (m ((c : Thread nD τ).loc main_arg1)) :=
  Eq.trans (by kept_by hostOps0_2) (w2_sources m ρ c)
theorem w3_destinations : W3 m ρ c (Proc.devRef .tc main_v6) = destinations (F := Ideal) (m ((c : Thread nD τ).loc main_arg1)) :=
  Eq.trans (by kept_by hostOps0_2) (w2_destinations m ρ c)
theorem w3_weights : W3 m ρ c (Proc.devRef .tc main_v31)
    = edgeWeights (F := Ideal) (sources (F := Ideal) (m ((c : Thread nD τ).loc main_arg1))) (destinations (F := Ideal) (m ((c : Thread nD τ).loc main_arg1))) := by
  have h := stretch02_weights (W2 m ρ c)
  rw [w2_invSqrt m ρ c, w2_sources m ρ c, w2_destinations m ρ c] at h
  unfold edgeWeights
  exact h

/-- An argument array is as launched at region 0's entry: no host operation writes an argument. -/
theorem w3_arg0 : W3 m ρ c (Proc.devRef .tc main_arg0) = m ((c : Thread nD τ).loc main_arg0) :=
  calc W3 m ρ c (Proc.devRef .tc main_arg0)
    _ = W2 m ρ c (Proc.devRef .tc main_arg0) := by kept_by hostOps0_2
    _ = W1 m ρ c (Proc.devRef .tc main_arg0) := by kept_by hostOps0_1
    _ = W0 m ρ c (Proc.devRef .tc main_arg0) := by kept_by hostOps0
    _ = m ((c : Thread nD τ).loc main_arg0) := rfl
theorem w3_arg2 : W3 m ρ c (Proc.devRef .tc main_arg2) = m ((c : Thread nD τ).loc main_arg2) :=
  calc W3 m ρ c (Proc.devRef .tc main_arg2)
    _ = W2 m ρ c (Proc.devRef .tc main_arg2) := by kept_by hostOps0_2
    _ = W1 m ρ c (Proc.devRef .tc main_arg2) := by kept_by hostOps0_1
    _ = W0 m ρ c (Proc.devRef .tc main_arg2) := by kept_by hostOps0
    _ = m ((c : Thread nD τ).loc main_arg2) := rfl
theorem w3_arg3 : W3 m ρ c (Proc.devRef .tc main_arg3) = m ((c : Thread nD τ).loc main_arg3) :=
  calc W3 m ρ c (Proc.devRef .tc main_arg3)
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = m ((c : Thread nD τ).loc main_arg3) := rfl
theorem w3_arg4 : W3 m ρ c (Proc.devRef .tc main_arg4) = m ((c : Thread nD τ).loc main_arg4) :=
  calc W3 m ρ c (Proc.devRef .tc main_arg4)
    _ = W2 m ρ c (Proc.devRef .tc main_arg4) := by kept_by hostOps0_2
    _ = W1 m ρ c (Proc.devRef .tc main_arg4) := by kept_by hostOps0_1
    _ = W0 m ρ c (Proc.devRef .tc main_arg4) := by kept_by hostOps0
    _ = m ((c : Thread nD τ).loc main_arg4) := rfl
theorem w3_arg5 : W3 m ρ c (Proc.devRef .tc main_arg5) = m ((c : Thread nD τ).loc main_arg5) :=
  calc W3 m ρ c (Proc.devRef .tc main_arg5)
    _ = W2 m ρ c (Proc.devRef .tc main_arg5) := by kept_by hostOps0_2
    _ = W1 m ρ c (Proc.devRef .tc main_arg5) := by kept_by hostOps0_1
    _ = W0 m ρ c (Proc.devRef .tc main_arg5) := by kept_by hostOps0
    _ = m ((c : Thread nD τ).loc main_arg5) := rfl

/-! ## Region 0 and the second host stretch: boundaries W4, W5 -/

/-- After region 0 its output array holds x · W1. -/
theorem w4_product : W4 m ρ c (Proc.devRef .tc main_v32)
    = rowsProduct (A := 100000) (K := 128) (N := 16) (m ((c : Thread nD τ).loc main_arg0)) (m ((c : Thread nD τ).loc main_arg2)) := by
  refine (W4_arr m ρ c 2).trans ((region0_value (V3 m ρ) c).trans ?_)
  show rowsProduct (A := 100000) (K := 128) (N := 16) (W3 m ρ c (Proc.devRef .tc main_arg0)) (W3 m ρ c (Proc.devRef .tc main_arg2)) = _
  rw [w3_arg0 m ρ c, w3_arg2 m ρ c]

theorem w4_sources : W4 m ρ c (Proc.devRef .tc main_v3) = sources (F := Ideal) (m ((c : Thread nD τ).loc main_arg1)) :=
  (W4_of_ne m ρ c main_v3 (by decide)).trans (w3_sources m ρ c)
theorem w4_destinations : W4 m ρ c (Proc.devRef .tc main_v6) = destinations (F := Ideal) (m ((c : Thread nD τ).loc main_arg1)) :=
  (W4_of_ne m ρ c main_v6 (by decide)).trans (w3_destinations m ρ c)
theorem w4_weights : W4 m ρ c (Proc.devRef .tc main_v31)
    = edgeWeights (F := Ideal) (sources (F := Ideal) (m ((c : Thread nD τ).loc main_arg1))) (destinations (F := Ideal) (m ((c : Thread nD τ).loc main_arg1))) :=
  (W4_of_ne m ρ c main_v31 (by decide)).trans (w3_weights m ρ c)
theorem w4_arg3 : W4 m ρ c (Proc.devRef .tc main_arg3) = m ((c : Thread nD τ).loc main_arg3) :=
  (W4_of_ne m ρ c main_arg3 (by decide)).trans (w3_arg3 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)

/-- After the second host stretch: the first layer's messages, passed. -/
theorem w5_passed : W5 m ρ c (Proc.devRef .tc main_v45)
    = propagate16 (F := Ideal) (rowsProduct (A := 100000) (K := 128) (N := 16) (m ((c : Thread nD τ).loc main_arg0)) (m ((c : Thread nD τ).loc main_arg2)))
        (sources (F := Ideal) (m ((c : Thread nD τ).loc main_arg1))) (destinations (F := Ideal) (m ((c : Thread nD τ).loc main_arg1)))
        (edgeWeights (F := Ideal) (sources (F := Ideal) (m ((c : Thread nD τ).loc main_arg1))) (destinations (F := Ideal) (m ((c : Thread nD τ).loc main_arg1)))) := by
  have h := stretch1_propagate (W4 m ρ c)
  rw [w4_product m ρ c, w4_sources m ρ c, w4_destinations m ρ c, w4_weights m ρ c] at h
  exact h
/-- … and the first bias as a one-row array. -/
theorem w5_biasRow : W5 m ρ c (Proc.devRef .tc main_v46) = shapeCast S1x16 (m ((c : Thread nD τ).loc main_arg3)) shapeCasts_S16_S1x16 := by
  have h := stretch1_biasRow (W4 m ρ c)
  rw [w4_arg3 m ρ c] at h
  exact h
theorem w5_arg4 : W5 m ρ c (Proc.devRef .tc main_arg4) = m ((c : Thread nD τ).loc main_arg4) :=
  Eq.trans (by kept_by hostOps1) (w4_arg4 m ρ c)
theorem w5_arg5 : W5 m ρ c (Proc.devRef .tc main_arg5) = m ((c : Thread nD τ).loc main_arg5) :=
  Eq.trans (by kept_by hostOps1) (w4_arg5 m ρ c)
theorem w5_sources : W5 m ρ c (Proc.devRef .tc main_v3) = sources (F := Ideal) (m ((c : Thread nD τ).loc main_arg1)) :=
  Eq.trans (by kept_by hostOps1) (w4_sources m ρ c)
theorem w5_destinations : W5 m ρ c (Proc.devRef .tc main_v6) = destinations (F := Ideal) (m ((c : Thread nD τ).loc main_arg1)) :=
  Eq.trans (by kept_by hostOps1) (w4_destinations m ρ c)
theorem w5_weights : W5 m ρ c (Proc.devRef .tc main_v31)
    = edgeWeights (F := Ideal) (sources (F := Ideal) (m ((c : Thread nD τ).loc main_arg1))) (destinations (F := Ideal) (m ((c : Thread nD τ).loc main_arg1))) :=
  Eq.trans (by kept_by hostOps1) (w4_weights m ρ c)

/-! ## Region 1 and the third host stretch: boundaries W6, W7 -/

/-- After region 1 its output array holds  max (passed + b1) 0 · W2. -/
theorem w6_hidden : W6 m ρ c (Proc.devRef .tc main_v47)
    = rowsProduct (A := 100000) (K := 16) (N := 40) (hiddenRows (A := 100000) (K := 16) (propagate16 (F := Ideal) (rowsProduct (A := 100000) (K := 128) (N := 16) (m ((c : Thread nD τ).loc main_arg0)) (m ((c : Thread nD τ).loc main_arg2))) (sources (F := Ideal) (m ((c : Thread nD τ).loc main_arg1))) (destinations (F := Ideal) (m ((c : Thread nD τ).loc main_arg1))) (edgeWeights (F := Ideal) (sources (F := Ideal) (m ((c : Thread nD τ).loc main_arg1))) (destinations (F := Ideal) (m ((c : Thread nD τ).loc main_arg1))))) (shapeCast S1x16 (m ((c : Thread nD τ).loc main_arg3)) shapeCasts_S16_S1x16)) (m ((c : Thread nD τ).loc main_arg4)) := by
  refine (W6_arr m ρ c 3).trans ((region1_value (V5 m ρ) c).trans ?_)
  show rowsProduct (A := 100000) (K := 16) (N := 40) (hiddenRows (A := 100000) (K := 16) (W5 m ρ c (Proc.devRef .tc main_v45)) (W5 m ρ c (Proc.devRef .tc main_v46)))
      (W5 m ρ c (Proc.devRef .tc main_arg4)) = _
  rw [w5_passed m ρ c, w5_biasRow m ρ c, w5_arg4 m ρ c]

theorem w6_sources : W6 m ρ c (Proc.devRef .tc main_v3) = sources (F := Ideal) (m ((c : Thread nD τ).loc main_arg1)) :=
  (W6_of_ne m ρ c main_v3 (by decide)).trans (w5_sources m ρ c)
theorem w6_destinations : W6 m ρ c (Proc.devRef .tc main_v6) = destinations (F := Ideal) (m ((c : Thread nD τ).loc main_arg1)) :=
  (W6_of_ne m ρ c main_v6 (by decide)).trans (w5_destinations m ρ c)
theorem w6_weights : W6 m ρ c (Proc.devRef .tc main_v31) = edgeWeights (F := Ideal) (sources (F := Ideal) (m ((c : Thread nD τ).loc main_arg1))) (destinations (F := Ideal) (m ((c : Thread nD τ).loc main_arg1))) :=
  (W6_of_ne m ρ c main_v31 (by decide)).trans (w5_weights m ρ c)
theorem w6_arg5 : W6 m ρ c (Proc.devRef .tc main_arg5) = m ((c : Thread nD τ).loc main_arg5) :=
  (W6_of_ne m ρ c main_arg5 (by decide)).trans (w5_arg5 m ρ c)

/-- After the third host stretch: the second layer's messages, passed. -/
theorem w7_passed : W7 m ρ c (Proc.devRef .tc main_v60)
    = propagate40 (F := Ideal) (rowsProduct (A := 100000) (K := 16) (N := 40) (hiddenRows (A := 100000) (K := 16) (propagate16 (F := Ideal) (rowsProduct (A := 100000) (K := 128) (N := 16) (m ((c : Thread nD τ).loc main_arg0)) (m ((c : Thread nD τ).loc main_arg2))) (sources (F := Ideal) (m ((c : Thread nD τ).loc main_arg1))) (destinations (F := Ideal) (m ((c : Thread nD τ).loc main_arg1))) (edgeWeights (F := Ideal) (sources (F := Ideal) (m ((c : Thread nD τ).loc main_arg1))) (destinations (F := Ideal) (m ((c : Thread nD τ).loc main_arg1))))) (shapeCast S1x16 (m ((c : Thread nD τ).loc main_arg3)) shapeCasts_S16_S1x16)) (m ((c : Thread nD τ).loc main_arg4))) (sources (F := Ideal) (m ((c : Thread nD τ).loc main_arg1))) (destinations (F := Ideal) (m ((c : Thread nD τ).loc main_arg1))) (edgeWeights (F := Ideal) (sources (F := Ideal) (m ((c : Thread nD τ).loc main_arg1))) (destinations (F := Ideal) (m ((c : Thread nD τ).loc main_arg1)))) := by
  have h := stretch2_propagate (W6 m ρ c)
  rw [w6_hidden m ρ c, w6_sources m ρ c, w6_destinations m ρ c, w6_weights m ρ c] at h
  exact h
/-- … and the second bias as a one-row array. -/
theorem w7_biasRow : W7 m ρ c (Proc.devRef .tc main_v61) = shapeCast S1x40 (m ((c : Thread nD τ).loc main_arg5)) shapeCasts_S40_S1x40 := by
  have h := stretch2_biasRow (W6 m ρ c)
  rw [w6_arg5 m ρ c] at h
  exact h

/-! ## Region 2: the result -/

/-- THE RESULT BUFFER at the end of @main, as a function of the six arguments. -/
theorem kernel_value : W8 m ρ c (Proc.devRef .tc main_v62)
    = logSoftmaxRows (A := 100000) (N := 40) (logitRows (A := 100000) (N := 40) (propagate40 (F := Ideal) (rowsProduct (A := 100000) (K := 16) (N := 40) (hiddenRows (A := 100000) (K := 16) (propagate16 (F := Ideal) (rowsProduct (A := 100000) (K := 128) (N := 16) (m ((c : Thread nD τ).loc main_arg0)) (m ((c : Thread nD τ).loc main_arg2))) (sources (F := Ideal) (m ((c : Thread nD τ).loc main_arg1))) (destinations (F := Ideal) (m ((c : Thread nD τ).loc main_arg1))) (edgeWeights (F := Ideal) (sources (F := Ideal) (m ((c : Thread nD τ).loc main_arg1))) (destinations (F := Ideal) (m ((c : Thread nD τ).loc main_arg1))))) (shapeCast S1x16 (m ((c : Thread nD τ).loc main_arg3)) shapeCasts_S16_S1x16)) (m ((c : Thread nD τ).loc main_arg4))) (sources (F := Ideal) (m ((c : Thread nD τ).loc main_arg1))) (destinations (F := Ideal) (m ((c : Thread nD τ).loc main_arg1))) (edgeWeights (F := Ideal) (sources (F := Ideal) (m ((c : Thread nD τ).loc main_arg1))) (destinations (F := Ideal) (m ((c : Thread nD τ).loc main_arg1))))) (shapeCast S1x40 (m ((c : Thread nD τ).loc main_arg5)) shapeCasts_S40_S1x40)) := by
  refine (W8_arr m ρ c 2).trans ((region2_value (V7 m ρ) c).trans ?_)
  show logSoftmaxRows (A := 100000) (N := 40) (logitRows (A := 100000) (N := 40) (W7 m ρ c (Proc.devRef .tc main_v60)) (W7 m ρ c (Proc.devRef .tc main_v61))) = _
  rw [w7_passed m ρ c, w7_biasRow m ρ c]

end Cert.GcnKernel

end
-- ==== Proof.ReferenceOps.lean ====
/-
  The reference program's @main as a list of its 101 host operations (the three functions jax outlined — where, relu,
  log_softmax — standing at their call sites), and the same list cut into six consecutive stretches, so that each stretch
  can be read on its own from whatever the buffers hold when it starts.
-/
import proofs.«126225_j51616916963867_1_alg».proof.Proof.Gen.ReferenceIdeal
import Idealize.ShloMosaic.Lib.StableHlo.Run
import Idealize.ShloMosaic.Lib.Pipeline.Frame

noncomputable section

namespace Cert.GcnReference.Run

open Cert.ReferenceIdeal Cert.ReferenceIdeal.Gen Idealize.ShloMosaic Idealize.ShloMosaic.TcCoe Idealize.SL.Sem Idealize.ShloMosaic.StableHlo

variable {F : FTy → Type} [FloatOps F]

/-- @main's 101 operations, in order (a called function's operations stand in its call's place, spelt `TRef.…`). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg0 main_arg2 main_v32 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg4 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v59 main_v60 (mulf : (⟨S3300000x40, .f32⟩ : BufTy).Contents (Elt F) → (⟨S3300000x40, .f32⟩ : BufTy).Contents (Elt F) → (⟨S3300000x40, .f32⟩ : BufTy).Contents (Elt F)),
    nullary main_cst_12 (constant S_ .f32 0x00000000#32),
    unary main_cst_12 main_v61 (broadcastInDim S100000x40 ![] bcast_S_S100000x40 : (⟨S_, .f32⟩ : BufTy).Contents (Elt F) → (⟨S100000x40, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- @main's operations 1 … 21: sources, destinations, the degree and its reciprocal square root (21 operations). -/
abbrev opsGraph : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- @main's operations 22 … 24: the outlined `where`: no weight for a node with no incoming edge (3 operations). -/
abbrev opsWhere : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- @main's operations 25 … 43: the edge weights (19 operations). -/
abbrev opsWeights : List (HloOp τ sig (Elt F)) :=
  [ nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- @main's operations 44 … 67: the first product, its messages passed, bias, positive part, the second product (24 operations). -/
abbrev opsLayer1 : List (HloOp τ sig (Elt F)) :=
  [ binary main_arg0 main_arg2 main_v32 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg4 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- @main's operations 68 … 86: the second layer's messages passed, and its bias (19 operations). -/
abbrev opsLayer2 : List (HloOp τ sig (Elt F)) :=
  [ nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v59 main_v60 (mulf : (⟨S3300000x40, .f32⟩ : BufTy).Contents (Elt F) → (⟨S3300000x40, .f32⟩ : BufTy).Contents (Elt F) → (⟨S3300000x40, .f32⟩ : BufTy).Contents (Elt F)),
    nullary main_cst_12 (constant S_ .f32 0x00000000#32),
    unary main_cst_12 main_v61 (broadcastInDim S100000x40 ![] bcast_S_S100000x40 : (⟨S_, .f32⟩ : BufTy).Contents (Elt F) → (⟨S100000x40, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]

/-- @main's operations 87 … 101: the outlined log_softmax (15 operations). -/
abbrev opsSoftmax : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

set_option maxRecDepth 8192 in
/-- The list is its six stretches in a row. -/
theorem ops_split : (ops : List (HloOp τ sig (Elt F))) = opsGraph ++ (opsWhere ++ (opsWeights ++ (opsLayer1 ++ (opsLayer2 ++ opsSoftmax)))) := rfl

/-- Running the whole list is running the six stretches one after the other. -/
theorem after_ops (V : Valuation τ sig (Elt F)) :
    after (ops (F := F)) V = after opsSoftmax (after opsLayer2 (after opsLayer1 (after opsWeights (after opsWhere (after opsGraph V))))) := by
  rw [ops_split, StableHlo.after_append, StableHlo.after_append, StableHlo.after_append, StableHlo.after_append, StableHlo.after_append]

end Cert.GcnReference.Run

end
-- ==== Proof.ReferenceStretches.lean ====
/-
  The six stretches of the reference's @main, each read from ARBITRARY contents U of the buffers when it starts: what the
  stretch leaves in the buffer that later stretches read, as the named function of what it reads. (The graph side's
  three stretches are, operation for operation, the kernel program's first three host stretches.)
-/
import proofs.«126225_j51616916963867_1_alg».proof.Proof.ReferenceOps
import proofs.«126225_j51616916963867_1_alg».proof.Proof.GlueTactics

noncomputable section

set_option maxRecDepth 16384

namespace Cert.GcnReference.Run

open Cert.ReferenceIdeal Cert.ReferenceIdeal.Gen Cert.Gcn Cert.GcnReference Idealize.ShloMosaic Idealize.ShloMosaic.TcCoe Idealize.SL.Sem Idealize.ShloMosaic.StableHlo

/-- Contents carried to a buffer's own type and back are the contents. -/
theorem ofBuf_toBuf {sg : RefSig} {T : BufTy} {Val : EltTy → Type} (x : StableHlo.TRef sg T) (v : T.Contents Val) : x.ofBuf (x.toBuf v) = v := by
  obtain ⟨r, h, h2, h3⟩ := x
  subst h
  rfl

variable {F : FTy → Type} [FloatOps F] (U : Valuation τ sig (Elt F))

set_option maxHeartbeats 4000000 in
theorem graph_sources : after (opsGraph (F := F)) U (Proc.devRef .tc main_v3) = sources (F := F) (U (Proc.devRef .tc main_arg1)) := by
  after_results_simp <;> (unfold_glue; rfl)
set_option maxHeartbeats 4000000 in
theorem graph_destinations : after (opsGraph (F := F)) U (Proc.devRef .tc main_v6) = destinations (F := F) (U (Proc.devRef .tc main_arg1)) := by
  after_results_simp <;> (unfold_glue; rfl)
set_option maxHeartbeats 4000000 in
theorem graph_positive : after (opsGraph (F := F)) U (Proc.devRef .tc main_v12)
    = cmpf (F := F) .ogt (degree (F := F) (destinations (F := F) (U (Proc.devRef .tc main_arg1))))
        (broadcastInDim S100000 ![] bcast_S_S100000 (constant (F := F) S_ .f32 0x00000000#32)) := by
  after_results_simp <;> (unfold_glue; rfl)
set_option maxHeartbeats 4000000 in
theorem graph_rsqrt : after (opsGraph (F := F)) U (Proc.devRef .tc main_v15)
    = Host.rsqrt (F := F) (maximumf (F := F) (degree (F := F) (destinations (F := F) (U (Proc.devRef .tc main_arg1))))
        (broadcastInDim S100000 ![] bcast_S_S100000 (constant (F := F) S_ .f32 0x3F800000#32))) := by
  after_results_simp <;> (unfold_glue; rfl)
set_option maxHeartbeats 4000000 in
theorem graph_zero : after (opsGraph (F := F)) U (Proc.devRef .tc main_cst_3) = constant (F := F) S_ .f32 0x00000000#32 := by
  after_results_simp <;> (unfold_glue; rfl)

set_option maxHeartbeats 4000000 in
theorem where_invSqrt : after (opsWhere (F := F)) U (Proc.devRef .tc main_v16)
    = select (U (Proc.devRef .tc main_v12)) (U (Proc.devRef .tc main_v15))
        (broadcastInDim S100000 ![] bcast_S_S100000 (id (U (Proc.devRef .tc main_cst_3)))) := by
  after_results_simp <;> (unfold_glue; rfl)

set_option maxHeartbeats 4000000 in
theorem weights_value : after (opsWeights (F := F)) U (Proc.devRef .tc main_v31)
    = mulf (F := F) (φ := .f32) (Host.gather gather_S100000_S3300000x1_S3300000_n_0_n_n_0_1_1 (U (Proc.devRef .tc main_v16)) (wrapIndex (F := F) (U (Proc.devRef .tc main_v3))))
        (Host.gather gather_S100000_S3300000x1_S3300000_n_0_n_n_0_1_1 (U (Proc.devRef .tc main_v16)) (wrapIndex (F := F) (U (Proc.devRef .tc main_v6)))) := by
  after_results_simp <;> (unfold_glue; rfl)

set_option maxHeartbeats 8000000 in
theorem layer1_value : after (opsLayer1 (F := F)) U (Proc.devRef .tc main_v50)
    = Host.dotGeneral (F := F) (φ₁ := .f32) (φ₂ := .f32) dot_S100000x16_S16x40_S100000x40_1_0_0_1_n_n none
        (hiddenHost (F := F)
          (propagate16 (F := F) (Host.dotGeneral (F := F) (φ₁ := .f32) (φ₂ := .f32) dot_S100000x128_S128x16_S100000x16_1_0_0_1_n_n none (U (Proc.devRef .tc main_arg0)) (U (Proc.devRef .tc main_arg2)))
            (U (Proc.devRef .tc main_v3)) (U (Proc.devRef .tc main_v6)) (U (Proc.devRef .tc main_v31)))
          (U (Proc.devRef .tc main_arg3)))
        (U (Proc.devRef .tc main_arg4)) := by
  after_results_simp <;> (unfold_glue; rfl)

set_option maxHeartbeats 8000000 in
theorem layer2_value : after (opsLayer2 (F := F)) U (Proc.devRef .tc main_v66)
    = logitsHost (F := F) (propagate40 (F := F) (U (Proc.devRef .tc main_v50)) (U (Proc.devRef .tc main_v3)) (U (Proc.devRef .tc main_v6)) (U (Proc.devRef .tc main_v31)))
        (U (Proc.devRef .tc main_arg5)) := by
  after_results_simp <;> (unfold_glue; rfl)

set_option maxHeartbeats 8000000 in
theorem softmax_value : after (opsSoftmax (F := F)) U (Proc.devRef .tc main_v67) = logSoftmaxHost (F := F) (U (Proc.devRef .tc main_v66)) := by
  after_results_simp
  simp only [ofBuf_toBuf]
  unfold_glue
  rfl

end Cert.GcnReference.Run

end
-- ==== Proof.ReferenceValue.lean ====
/-
  What the reference's 101 operations leave in the result buffer, from the launch contents: the network of the six
  arguments. Stretch by stretch — the graph side (three stretches), the first layer with the hidden layer and the second
  product, the second layer with its bias, the log-softmax. The graph arrays (sources, destinations, edge weights) are
  written once and no later stretch writes them; no stretch writes an argument.
-/
import proofs.«126225_j51616916963867_1_alg».proof.Proof.ReferenceStretches

noncomputable section

set_option maxRecDepth 16384

namespace Cert.GcnReference.Run

open Cert.ReferenceIdeal Cert.ReferenceIdeal.Gen Cert.Gcn Cert.GcnReference Idealize.ShloMosaic Idealize.ShloMosaic.TcCoe Idealize.SL.Sem Idealize.ShloMosaic.StableHlo

variable {F : FTy → Type} [FloatOps F]

section Kept
variable (U : Valuation τ sig (Elt F))
/-! A stretch leaves alone every buffer it does not write. -/
theorem kept_graph_arg0 : after (opsGraph (F := F)) U (Proc.devRef .tc main_arg0) = U (Proc.devRef .tc main_arg0) := by kept_by opsGraph
theorem kept_graph_arg2 : after (opsGraph (F := F)) U (Proc.devRef .tc main_arg2) = U (Proc.devRef .tc main_arg2) := by kept_by opsGraph
theorem kept_graph_arg3 : after (opsGraph (F := F)) U (Proc.devRef .tc main_arg3) = U (Proc.devRef .tc main_arg3) := by kept_by opsGraph
theorem kept_graph_arg4 : after (opsGraph (F := F)) U (Proc.devRef .tc main_arg4) = U (Proc.devRef .tc main_arg4) := by kept_by opsGraph
theorem kept_graph_arg5 : after (opsGraph (F := F)) U (Proc.devRef .tc main_arg5) = U (Proc.devRef .tc main_arg5) := by kept_by opsGraph
theorem kept_where_v3 : after (opsWhere (F := F)) U (Proc.devRef .tc main_v3) = U (Proc.devRef .tc main_v3) := by kept_by opsWhere
theorem kept_where_v6 : after (opsWhere (F := F)) U (Proc.devRef .tc main_v6) = U (Proc.devRef .tc main_v6) := by kept_by opsWhere
theorem kept_where_arg0 : after (opsWhere (F := F)) U (Proc.devRef .tc main_arg0) = U (Proc.devRef .tc main_arg0) := by kept_by opsWhere
theorem kept_where_arg2 : after (opsWhere (F := F)) U (Proc.devRef .tc main_arg2) = U (Proc.devRef .tc main_arg2) := by kept_by opsWhere
theorem kept_where_arg3 : after (opsWhere (F := F)) U (Proc.devRef .tc main_arg3) = U (Proc.devRef .tc main_arg3) := by kept_by opsWhere
theorem kept_where_arg4 : after (opsWhere (F := F)) U (Proc.devRef .tc main_arg4) = U (Proc.devRef .tc main_arg4) := by kept_by opsWhere
theorem kept_where_arg5 : after (opsWhere (F := F)) U (Proc.devRef .tc main_arg5) = U (Proc.devRef .tc main_arg5) := by kept_by opsWhere
theorem kept_weights_v3 : after (opsWeights (F := F)) U (Proc.devRef .tc main_v3) = U (Proc.devRef .tc main_v3) := by kept_by opsWeights
theorem kept_weights_v6 : after (opsWeights (F := F)) U (Proc.devRef .tc main_v6) = U (Proc.devRef .tc main_v6) := by kept_by opsWeights
theorem kept_weights_arg0 : after (opsWeights (F := F)) U (Proc.devRef .tc main_arg0) = U (Proc.devRef .tc main_arg0) := by kept_by opsWeights
theorem kept_weights_arg2 : after (opsWeights (F := F)) U (Proc.devRef .tc main_arg2) = U (Proc.devRef .tc main_arg2) := by kept_by opsWeights
theorem kept_weights_arg3 : after (opsWeights (F := F)) U (Proc.devRef .tc main_arg3) = U (Proc.devRef .tc main_arg3) := by kept_by opsWeights
theorem kept_weights_arg4 : after (opsWeights (F := F)) U (Proc.devRef .tc main_arg4) = U (Proc.devRef .tc main_arg4) := by kept_by opsWeights
theorem kept_weights_arg5 : after (opsWeights (F := F)) U (Proc.devRef .tc main_arg5) = U (Proc.devRef .tc main_arg5) := by kept_by opsWeights
theorem kept_layer1_v3 : after (opsLayer1 (F := F)) U (Proc.devRef .tc main_v3) = U (Proc.devRef .tc main_v3) := by kept_by opsLayer1
theorem kept_layer1_v6 : after (opsLayer1 (F := F)) U (Proc.devRef .tc main_v6) = U (Proc.devRef .tc main_v6) := by kept_by opsLayer1
theorem kept_layer1_v31 : after (opsLayer1 (F := F)) U (Proc.devRef .tc main_v31) = U (Proc.devRef .tc main_v31) := by kept_by opsLayer1
theorem kept_layer1_arg5 : after (opsLayer1 (F := F)) U (Proc.devRef .tc main_arg5) = U (Proc.devRef .tc main_arg5) := by kept_by opsLayer1

end Kept

variable (m : (ℓ : Loc nD τ sig) → Buf (Elt F) ℓ) (c : Dev nD)

/-! ## After the graph side -/

theorem b1_sources : (after (opsGraph (F := F)) (launchContents m c)) (Proc.devRef .tc main_v3) = sources (F := F) (m ((c.tc : Thread nD τ).loc main_arg1)) := graph_sources (launchContents m c)
theorem b1_destinations : (after (opsGraph (F := F)) (launchContents m c)) (Proc.devRef .tc main_v6) = destinations (F := F) (m ((c.tc : Thread nD τ).loc main_arg1)) := graph_destinations (launchContents m c)

theorem b2_sources : (after (opsWhere (F := F)) (after (opsGraph (F := F)) (launchContents m c))) (Proc.devRef .tc main_v3) = sources (F := F) (m ((c.tc : Thread nD τ).loc main_arg1)) := (kept_where_v3 (after (opsGraph (F := F)) (launchContents m c))).trans (b1_sources m c)
theorem b2_destinations : (after (opsWhere (F := F)) (after (opsGraph (F := F)) (launchContents m c))) (Proc.devRef .tc main_v6) = destinations (F := F) (m ((c.tc : Thread nD τ).loc main_arg1)) := (kept_where_v6 (after (opsGraph (F := F)) (launchContents m c))).trans (b1_destinations m c)
theorem b2_invSqrt : (after (opsWhere (F := F)) (after (opsGraph (F := F)) (launchContents m c))) (Proc.devRef .tc main_v16) = invSqrtDegree (F := F) (destinations (F := F) (m ((c.tc : Thread nD τ).loc main_arg1))) := by
  have h := where_invSqrt (after (opsGraph (F := F)) (launchContents m c))
  rw [show (after (opsGraph (F := F)) (launchContents m c)) (Proc.devRef .tc main_v12) = _ from graph_positive (launchContents m c),
      show (after (opsGraph (F := F)) (launchContents m c)) (Proc.devRef .tc main_v15) = _ from graph_rsqrt (launchContents m c),
      show (after (opsGraph (F := F)) (launchContents m c)) (Proc.devRef .tc main_cst_3) = _ from graph_zero (launchContents m c)] at h
  unfold invSqrtDegree
  exact h

theorem b3_sources : (after (opsWeights (F := F)) (after (opsWhere (F := F)) (after (opsGraph (F := F)) (launchContents m c)))) (Proc.devRef .tc main_v3) = sources (F := F) (m ((c.tc : Thread nD τ).loc main_arg1)) := (kept_weights_v3 (after (opsWhere (F := F)) (after (opsGraph (F := F)) (launchContents m c)))).trans (b2_sources m c)
theorem b3_destinations : (after (opsWeights (F := F)) (after (opsWhere (F := F)) (after (opsGraph (F := F)) (launchContents m c)))) (Proc.devRef .tc main_v6) = destinations (F := F) (m ((c.tc : Thread nD τ).loc main_arg1)) := (kept_weights_v6 (after (opsWhere (F := F)) (after (opsGraph (F := F)) (launchContents m c)))).trans (b2_destinations m c)
theorem b3_weights : (after (opsWeights (F := F)) (after (opsWhere (F := F)) (after (opsGraph (F := F)) (launchContents m c)))) (Proc.devRef .tc main_v31) = edgeWeights (F := F) (sources (F := F) (m ((c.tc : Thread nD τ).loc main_arg1))) (destinations (F := F) (m ((c.tc : Thread nD τ).loc main_arg1))) := by
  have h := weights_value (after (opsWhere (F := F)) (after (opsGraph (F := F)) (launchContents m c)))
  rw [b2_invSqrt m c, b2_sources m c, b2_destinations m c] at h
  unfold edgeWeights
  exact h
theorem b3_arg0 : (after (opsWeights (F := F)) (after (opsWhere (F := F)) (after (opsGraph (F := F)) (launchContents m c)))) (Proc.devRef .tc main_arg0) = m ((c.tc : Thread nD τ).loc main_arg0) :=
  (kept_weights_arg0 (after (opsWhere (F := F)) (after (opsGraph (F := F)) (launchContents m c)))).trans ((kept_where_arg0 (after (opsGraph (F := F)) (launchContents m c))).trans (kept_graph_arg0 (launchContents m c)))
theorem b3_arg2 : (after (opsWeights (F := F)) (after (opsWhere (F := F)) (after (opsGraph (F := F)) (launchContents m c)))) (Proc.devRef .tc main_arg2) = m ((c.tc : Thread nD τ).loc main_arg2) :=
  (kept_weights_arg2 (after (opsWhere (F := F)) (after (opsGraph (F := F)) (launchContents m c)))).trans ((kept_where_arg2 (after (opsGraph (F := F)) (launchContents m c))).trans (kept_graph_arg2 (launchContents m c)))
theorem b3_arg3 : (after (opsWeights (F := F)) (after (opsWhere (F := F)) (after (opsGraph (F := F)) (launchContents m c)))) (Proc.devRef .tc main_arg3) = m ((c.tc : Thread nD τ).loc main_arg3) :=
  (kept_weights_arg3 (after (opsWhere (F := F)) (after (opsGraph (F := F)) (launchContents m c)))).trans ((kept_where_arg3 (after (opsGraph (F := F)) (launchContents m c))).trans (kept_graph_arg3 (launchContents m c)))
theorem b3_arg4 : (after (opsWeights (F := F)) (after (opsWhere (F := F)) (after (opsGraph (F := F)) (launchContents m c)))) (Proc.devRef .tc main_arg4) = m ((c.tc : Thread nD τ).loc main_arg4) :=
  (kept_weights_arg4 (after (opsWhere (F := F)) (after (opsGraph (F := F)) (launchContents m c)))).trans ((kept_where_arg4 (after (opsGraph (F := F)) (launchContents m c))).trans (kept_graph_arg4 (launchContents m c)))
theorem b3_arg5 : (after (opsWeights (F := F)) (after (opsWhere (F := F)) (after (opsGraph (F := F)) (launchContents m c)))) (Proc.devRef .tc main_arg5) = m ((c.tc : Thread nD τ).loc main_arg5) :=
  (kept_weights_arg5 (after (opsWhere (F := F)) (after (opsGraph (F := F)) (launchContents m c)))).trans ((kept_where_arg5 (after (opsGraph (F := F)) (launchContents m c))).trans (kept_graph_arg5 (launchContents m c)))

/-! ## The two layers and the log-softmax -/

theorem b4_product2 : (after (opsLayer1 (F := F)) (after (opsWeights (F := F)) (after (opsWhere (F := F)) (after (opsGraph (F := F)) (launchContents m c))))) (Proc.devRef .tc main_v50)
    = Host.dotGeneral (F := F) (φ₁ := .f32) (φ₂ := .f32) dot_S100000x16_S16x40_S100000x40_1_0_0_1_n_n none
        (hiddenHost (F := F)
          (propagate16 (F := F) (Host.dotGeneral (F := F) (φ₁ := .f32) (φ₂ := .f32) dot_S100000x128_S128x16_S100000x16_1_0_0_1_n_n none (m ((c.tc : Thread nD τ).loc main_arg0)) (m ((c.tc : Thread nD τ).loc main_arg2)))
            (sources (F := F) (m ((c.tc : Thread nD τ).loc main_arg1))) (destinations (F := F) (m ((c.tc : Thread nD τ).loc main_arg1))) (edgeWeights (F := F) (sources (F := F) (m ((c.tc : Thread nD τ).loc main_arg1))) (destinations (F := F) (m ((c.tc : Thread nD τ).loc main_arg1)))))
          (m ((c.tc : Thread nD τ).loc main_arg3)))
        (m ((c.tc : Thread nD τ).loc main_arg4)) := by
  have h := layer1_value (after (opsWeights (F := F)) (after (opsWhere (F := F)) (after (opsGraph (F := F)) (launchContents m c))))
  rw [b3_arg0 m c, b3_arg2 m c, b3_arg3 m c, b3_arg4 m c, b3_sources m c, b3_destinations m c, b3_weights m c] at h
  exact h
theorem b4_sources : (after (opsLayer1 (F := F)) (after (opsWeights (F := F)) (after (opsWhere (F := F)) (after (opsGraph (F := F)) (launchContents m c))))) (Proc.devRef .tc main_v3) = sources (F := F) (m ((c.tc : Thread nD τ).loc main_arg1)) := (kept_layer1_v3 (after (opsWeights (F := F)) (after (opsWhere (F := F)) (after (opsGraph (F := F)) (launchContents m c))))).trans (b3_sources m c)
theorem b4_destinations : (after (opsLayer1 (F := F)) (after (opsWeights (F := F)) (after (opsWhere (F := F)) (after (opsGraph (F := F)) (launchContents m c))))) (Proc.devRef .tc main_v6) = destinations (F := F) (m ((c.tc : Thread nD τ).loc main_arg1)) := (kept_layer1_v6 (after (opsWeights (F := F)) (after (opsWhere (F := F)) (after (opsGraph (F := F)) (launchContents m c))))).trans (b3_destinations m c)
theorem b4_weights : (after (opsLayer1 (F := F)) (after (opsWeights (F := F)) (after (opsWhere (F := F)) (after (opsGraph (F := F)) (launchContents m c))))) (Proc.devRef .tc main_v31) = edgeWeights (F := F) (sources (F := F) (m ((c.tc : Thread nD τ).loc main_arg1))) (destinations (F := F) (m ((c.tc : Thread nD τ).loc main_arg1))) := (kept_layer1_v31 (after (opsWeights (F := F)) (after (opsWhere (F := F)) (after (opsGraph (F := F)) (launchContents m c))))).trans (b3_weights m c)
theorem b4_arg5 : (after (opsLayer1 (F := F)) (after (opsWeights (F := F)) (after (opsWhere (F := F)) (after (opsGraph (F := F)) (launchContents m c))))) (Proc.devRef .tc main_arg5) = m ((c.tc : Thread nD τ).loc main_arg5) := (kept_layer1_arg5 (after (opsWeights (F := F)) (after (opsWhere (F := F)) (after (opsGraph (F := F)) (launchContents m c))))).trans (b3_arg5 m c)

theorem b5_logits : (after (opsLayer2 (F := F)) (after (opsLayer1 (F := F)) (after (opsWeights (F := F)) (after (opsWhere (F := F)) (after (opsGraph (F := F)) (launchContents m c)))))) (Proc.devRef .tc main_v66)
    = logitsHost (F := F) (propagate40 (F := F) (Host.dotGeneral (F := F) (φ₁ := .f32) (φ₂ := .f32) dot_S100000x16_S16x40_S100000x40_1_0_0_1_n_n none
        (hiddenHost (F := F)
          (propagate16 (F := F) (Host.dotGeneral (F := F) (φ₁ := .f32) (φ₂ := .f32) dot_S100000x128_S128x16_S100000x16_1_0_0_1_n_n none (m ((c.tc : Thread nD τ).loc main_arg0)) (m ((c.tc : Thread nD τ).loc main_arg2)))
            (sources (F := F) (m ((c.tc : Thread nD τ).loc main_arg1))) (destinations (F := F) (m ((c.tc : Thread nD τ).loc main_arg1))) (edgeWeights (F := F) (sources (F := F) (m ((c.tc : Thread nD τ).loc main_arg1))) (destinations (F := F) (m ((c.tc : Thread nD τ).loc main_arg1)))))
          (m ((c.tc : Thread nD τ).loc main_arg3)))
        (m ((c.tc : Thread nD τ).loc main_arg4))) (sources (F := F) (m ((c.tc : Thread nD τ).loc main_arg1))) (destinations (F := F) (m ((c.tc : Thread nD τ).loc main_arg1))) (edgeWeights (F := F) (sources (F := F) (m ((c.tc : Thread nD τ).loc main_arg1))) (destinations (F := F) (m ((c.tc : Thread nD τ).loc main_arg1))))) (m ((c.tc : Thread nD τ).loc main_arg5)) := by
  have h := layer2_value (after (opsLayer1 (F := F)) (after (opsWeights (F := F)) (after (opsWhere (F := F)) (after (opsGraph (F := F)) (launchContents m c)))))
  rw [b4_product2 m c, b4_sources m c, b4_destinations m c, b4_weights m c, b4_arg5 m c] at h
  exact h

/-- THE RESULT BUFFER after the 101 operations, from the launch contents: the network of the six arguments. -/
theorem result_value : after (ops (F := F)) (launchContents m c) (Proc.devRef .tc main_v67) = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  have h := softmax_value (after (opsLayer2 (F := F)) (after (opsLayer1 (F := F)) (after (opsWeights (F := F)) (after (opsWhere (F := F)) (after (opsGraph (F := F)) (launchContents m c))))))
  rw [b5_logits m c] at h
  unfold network
  exact h

end Cert.GcnReference.Run

end
-- ==== Proof.ReferenceArgs.lean ====
/-
  None of the reference's 101 operations writes an argument of @main: after them an argument's buffer holds what it was
  launched with.
-/
import proofs.«126225_j51616916963867_1_alg».proof.Proof.ReferenceOps
import proofs.«126225_j51616916963867_1_alg».proof.Proof.GlueTactics

noncomputable section

set_option maxRecDepth 16384

namespace Cert.GcnReference.Run

open Cert.ReferenceIdeal Cert.ReferenceIdeal.Gen Cert.Gcn Idealize.ShloMosaic Idealize.ShloMosaic.TcCoe Idealize.SL.Sem Idealize.ShloMosaic.StableHlo

variable {F : FTy → Type} [FloatOps F] (U : Valuation τ sig (Elt F))

theorem ops_keep_arg0 : after (ops (F := F)) U (Proc.devRef .tc main_arg0) = U (Proc.devRef .tc main_arg0) := by kept_by ops
theorem ops_keep_arg1 : after (ops (F := F)) U (Proc.devRef .tc main_arg1) = U (Proc.devRef .tc main_arg1) := by kept_by ops
theorem ops_keep_arg2 : after (ops (F := F)) U (Proc.devRef .tc main_arg2) = U (Proc.devRef .tc main_arg2) := by kept_by ops
theorem ops_keep_arg3 : after (ops (F := F)) U (Proc.devRef .tc main_arg3) = U (Proc.devRef .tc main_arg3) := by kept_by ops
theorem ops_keep_arg4 : after (ops (F := F)) U (Proc.devRef .tc main_arg4) = U (Proc.devRef .tc main_arg4) := by kept_by ops
theorem ops_keep_arg5 : after (ops (F := F)) U (Proc.devRef .tc main_arg5) = U (Proc.devRef .tc main_arg5) := by kept_by ops

end Cert.GcnReference.Run

end
-- ==== Proof.ReferenceRun.lean ====
/-
  The reference program's run, read back: @main is a straight line of host operations, so every weakly fair execution
  terminates with each buffer at what the operations leave there from the launch contents. The result buffer ends at
  network  of the six arguments, and the arguments are unchanged.
-/
import proofs.«126225_j51616916963867_1_alg».proof.Proof.ReferenceValue
import proofs.«126225_j51616916963867_1_alg».proof.Proof.ReferenceArgs

noncomputable section

set_option maxRecDepth 16384

namespace Cert.GcnReference.Run

open Cert.ReferenceIdeal Cert.ReferenceIdeal.Gen Cert.Gcn Cert.GcnReference Idealize.ShloMosaic Idealize.ShloMosaic.TcCoe Idealize.SL.Sem Idealize.ShloMosaic.StableHlo

variable {F : FTy → Type} [FloatOps F]

/-- On every device, for any float values, from any memory with zero counters: every weakly fair execution of @main
    terminates with the result at the network of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result_value m c),
      (h c main_arg0).trans (ops_keep_arg0 (launchContents m c)),
      (h c main_arg1).trans (ops_keep_arg1 (launchContents m c)),
      (h c main_arg2).trans (ops_keep_arg2 (launchContents m c)),
      (h c main_arg3).trans (ops_keep_arg3 (launchContents m c)),
      (h c main_arg4).trans (ops_keep_arg4 (launchContents m c)),
      (h c main_arg5).trans (ops_keep_arg5 (launchContents m c))⟩)
    (run_seq scopedRefs_eq scopedSems_eq defs main (fun _ => ops) main_eq (fun _ => ops_sub) m ρ)

end Cert.GcnReference.Run

end
-- ==== Proof.ReferenceProducts.lean ====
/-
  The two matrix products of the reference, read at an entry.
  At the exact values the host's product of a [rows, K] array with a [K, N] array has, at (p, q), the value
  Σ_k x(p, k) · w(k, q)  over the contracted coordinate: the same sum a row block of the kernel computes for its rows.
-/
import proofs.«126225_j51616916963867_1_alg».proof.Proof.Gen.ReferenceIdeal
import Idealize.ShloMosaic.Lib.ValueIdx
import Idealize.ShloMosaic.Lib.Pipeline.Value
import Idealize.ShloMosaic.PureOps.Ideal.Laws

noncomputable section

namespace Cert.GcnReference

open Cert.ReferenceIdeal Cert.ReferenceIdeal.Gen Idealize.ShloMosaic Idealize.ShloMosaic.TcCoe Idealize.ShloMosaic.ValueIdx

theorem hostProduct1_l0 (j : S100000x16.Idx) (q : dot_S100000x128_S128x16_S100000x16_1_0_0_1_n_n.contr.Idx) :
    (dot_S100000x128_S128x16_S100000x16_1_0_0_1_n_n.lhsIdx j q 0).val = (j 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl
theorem hostProduct1_r1 (j : S100000x16.Idx) (q : dot_S100000x128_S128x16_S100000x16_1_0_0_1_n_n.contr.Idx) :
    (dot_S100000x128_S128x16_S100000x16_1_0_0_1_n_n.rhsIdx j q 1).val = (j 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl
/-- Entry (p, q) of the first layer's product  x · W1  is  Σ_k x(p, k) · W1(k, q). -/
theorem hostProduct1 (x : FVec Ideal S100000x128 .f32) (w : FVec Ideal S128x16 .f32) (j : S100000x16.Idx) :
    Host.dotGeneral dot_S100000x128_S128x16_S100000x16_1_0_0_1_n_n none x w j
      = ∑ k : Fin 128, x (ix2 (⟨(j 0).val, (j 0).isLt⟩ : Fin 100000) k) * w (ix2 k (⟨(j 1).val, (j 1).isLt⟩ : Fin 16)) := by
  simp only [Host.dotGeneral]
  rw [Ideal.dotGeneral_apply, ← Equiv.sum_comp (contrEquiv1 dot_S100000x128_S128x16_S100000x16_1_0_0_1_n_n 128 rfl rfl).symm]
  refine Finset.sum_congr rfl fun k _ => ?_
  have hk := contrEquiv1_symm_val dot_S100000x128_S128x16_S100000x16_1_0_0_1_n_n 128 rfl rfl k
  have el : dot_S100000x128_S128x16_S100000x16_1_0_0_1_n_n.lhsIdx j ((contrEquiv1 dot_S100000x128_S128x16_S100000x16_1_0_0_1_n_n 128 rfl rfl).symm k)
      = ix2 (⟨(j 0).val, (j 0).isLt⟩ : Fin 100000) k := funext fun a => Fin.ext (by
    match a with
    | ⟨0, _⟩ => exact hostProduct1_l0 _ _
    | ⟨1, _⟩ => exact (dot_S100000x128_S128x16_S100000x16_1_0_0_1_n_n.lhsIdx_val_of_single rfl j _).trans hk)
  have er : dot_S100000x128_S128x16_S100000x16_1_0_0_1_n_n.rhsIdx j ((contrEquiv1 dot_S100000x128_S128x16_S100000x16_1_0_0_1_n_n 128 rfl rfl).symm k)
      = ix2 k (⟨(j 1).val, (j 1).isLt⟩ : Fin 16) := funext fun a => Fin.ext (by
    match a with
    | ⟨0, _⟩ => exact (dot_S100000x128_S128x16_S100000x16_1_0_0_1_n_n.rhsIdx_val_of_single rfl j _).trans hk
    | ⟨1, _⟩ => exact hostProduct1_r1 _ _)
  rw [el, er]

theorem hostProduct2_l0 (j : S100000x40.Idx) (q : dot_S100000x16_S16x40_S100000x40_1_0_0_1_n_n.contr.Idx) :
    (dot_S100000x16_S16x40_S100000x40_1_0_0_1_n_n.lhsIdx j q 0).val = (j 0).val := by
  unfold DotDims.lhsIdx
  rw [dif_neg (show ¬(0 : Fin S100000x16.rank) ∈ dot_S100000x16_S16x40_S100000x40_1_0_0_1_n_n.lhsBatch by decide), dif_pos (show (0 : Fin S100000x16.rank) ∈ dot_S100000x16_S16x40_S100000x40_1_0_0_1_n_n.lhsNonContracting by decide)]
  rfl
theorem hostProduct2_r1 (j : S100000x40.Idx) (q : dot_S100000x16_S16x40_S100000x40_1_0_0_1_n_n.contr.Idx) :
    (dot_S100000x16_S16x40_S100000x40_1_0_0_1_n_n.rhsIdx j q 1).val = (j 1).val := by
  unfold DotDims.rhsIdx
  rw [dif_neg (show ¬(1 : Fin S16x40.rank) ∈ dot_S100000x16_S16x40_S100000x40_1_0_0_1_n_n.rhsBatch by decide), dif_pos (show (1 : Fin S16x40.rank) ∈ dot_S100000x16_S16x40_S100000x40_1_0_0_1_n_n.rhsNonContracting by decide)]
  rfl
/-- Entry (p, q) of the second layer's product  h · W2  is  Σ_k h(p, k) · W2(k, q). -/
theorem hostProduct2 (x : FVec Ideal S100000x16 .f32) (w : FVec Ideal S16x40 .f32) (j : S100000x40.Idx) :
    Host.dotGeneral dot_S100000x16_S16x40_S100000x40_1_0_0_1_n_n none x w j
      = ∑ k : Fin 16, x (ix2 (⟨(j 0).val, (j 0).isLt⟩ : Fin 100000) k) * w (ix2 k (⟨(j 1).val, (j 1).isLt⟩ : Fin 40)) := by
  simp only [Host.dotGeneral]
  rw [Ideal.dotGeneral_apply, ← Equiv.sum_comp (contrEquiv1 dot_S100000x16_S16x40_S100000x40_1_0_0_1_n_n 16 rfl rfl).symm]
  refine Finset.sum_congr rfl fun k _ => ?_
  have hk := contrEquiv1_symm_val dot_S100000x16_S16x40_S100000x40_1_0_0_1_n_n 16 rfl rfl k
  have el : dot_S100000x16_S16x40_S100000x40_1_0_0_1_n_n.lhsIdx j ((contrEquiv1 dot_S100000x16_S16x40_S100000x40_1_0_0_1_n_n 16 rfl rfl).symm k)
      = ix2 (⟨(j 0).val, (j 0).isLt⟩ : Fin 100000) k := funext fun a => Fin.ext (by
    match a with
    | ⟨0, _⟩ => exact hostProduct2_l0 _ _
    | ⟨1, _⟩ => exact (dot_S100000x16_S16x40_S100000x40_1_0_0_1_n_n.lhsIdx_val_of_single rfl j _).trans hk)
  have er : dot_S100000x16_S16x40_S100000x40_1_0_0_1_n_n.rhsIdx j ((contrEquiv1 dot_S100000x16_S16x40_S100000x40_1_0_0_1_n_n 16 rfl rfl).symm k)
      = ix2 k (⟨(j 1).val, (j 1).isLt⟩ : Fin 40) := funext fun a => Fin.ext (by
    match a with
    | ⟨0, _⟩ => exact (dot_S100000x16_S16x40_S100000x40_1_0_0_1_n_n.rhsIdx_val_of_single rfl j _).trans hk
    | ⟨1, _⟩ => exact hostProduct2_r1 _ _)
  rw [el, er]

end Cert.GcnReference

end
-- ==== Proof.ReferenceStages.lean ====
/-
  The reference's three dense stages, as it prints them with host operations on whole arrays, are the stage functions
  of Spec, entry by entry.
    * the first product  x · W1  is  rowsProduct x W1                                       (the contraction read as a sum)
    * the second product of  max (a + bias along rows) 0  with W2 is  rowsProduct (hiddenRows a b') W2
    * log_softmax (a + bias along rows)  is  logSoftmaxRows (logitRows a b')
  where b' is ANY one-row array holding the bias vector's entries (the kernel hands its bias over as such a row).
  In the log-softmax the reference takes the larger of −∞ and the row's reduction from −∞: the reduction is already at
  least its starting value, so that is the reduction; and its row sum starts from the value 0, which adds nothing.
-/
import proofs.«126225_j51616916963867_1_alg».proof.Proof.NetworkGlue
import proofs.«126225_j51616916963867_1_alg».proof.Proof.ReferenceProducts
import proofs.«126225_j51616916963867_1_alg».proof.Proof.Spec
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws

noncomputable section

namespace Cert.GcnReference

open Cert.ReferenceIdeal Cert.ReferenceIdeal.Gen Cert.Gcn Idealize.ShloMosaic Idealize.ShloMosaic.TcCoe Idealize.ShloMosaic.ValueIdx

/-- The first layer's product. -/
theorem product1_eq (x : FVec Ideal S100000x128 .f32) (w : FVec Ideal S128x16 .f32) :
    Host.dotGeneral (F := Ideal) dot_S100000x128_S128x16_S100000x16_1_0_0_1_n_n none x w = rowsProduct (A := 100000) (K := 128) (N := 16) x w :=
  funext fun j => hostProduct1 x w j

/-- A vector laid along a one-row array, then down 100000 rows, read at (r, k): the vector's entry k. -/
theorem biasRows16_apply (b : FVec Ideal S16 .f32) (r : Fin 100000) (k : Fin 16) :
    broadcastInDim S100000x16 ![0, 1] bcast_S1x16_S100000x16_0_1 (broadcastInDim S1x16 ![1] bcast_S16_S1x16_1 b) (ix2 r k) = b (ix1 k) := by
  rw [broadcastInDim_oneRow_apply]
  exact broadcastInDim_apply ![1] bcast_S16_S1x16_1 b (ix2 (0 : Fin 1) k) (ix1 k) (fun a => by
    match a with
    | ⟨0, _⟩ => rfl)

theorem biasRows40_apply (b : FVec Ideal S40 .f32) (r : Fin 100000) (q : Fin 40) :
    broadcastInDim S100000x40 ![0, 1] bcast_S1x40_S100000x40_0_1 (broadcastInDim S1x40 ![1] bcast_S40_S1x40_1 b) (ix2 r q) = b (ix1 q) := by
  rw [broadcastInDim_oneRow_apply]
  exact broadcastInDim_apply ![1] bcast_S40_S1x40_1 b (ix2 (0 : Fin 1) q) (ix1 q) (fun a => by
    match a with
    | ⟨0, _⟩ => rfl)

/-- The reference's hidden layer is hiddenRows over any one-row copy of the bias. -/
theorem hidden_eq (a : FVec Ideal S100000x16 .f32) (b : FVec Ideal S16 .f32) (b' : (⟨2, ![1, 16]⟩ : Shape).Idx → EReal)
    (hb : ∀ k : Fin 16, b' (ix2 (0 : Fin 1) k) = b (ix1 k)) :
    hiddenHost (F := Ideal) a b = hiddenRows (A := 100000) (K := 16) a b' :=
  funext fun i => by
    obtain ⟨r, k, rfl⟩ : ∃ (r : Fin 100000) (k : Fin 16), i = ix2 r k := ⟨i 0, i 1, eq_ix2 i⟩
    unfold hiddenHost hiddenRows
    show max (a (ix2 r k) + broadcastInDim S100000x16 ![0, 1] bcast_S1x16_S100000x16_0_1 (broadcastInDim S1x16 ![1] bcast_S16_S1x16_1 b) (ix2 r k)) (Ideal.ofBits .f32 0x00000000#32)
        = max (a (ix2 r k) + b' (ix2 (0 : Fin 1) k)) (Ideal.ofBits .f32 0x00000000#32)
    rw [biasRows16_apply, hb]

/-- The second layer's product, over the hidden layer. -/
theorem product2_eq (a : FVec Ideal S100000x16 .f32) (b : FVec Ideal S16 .f32) (b' : (⟨2, ![1, 16]⟩ : Shape).Idx → EReal)
    (hb : ∀ k : Fin 16, b' (ix2 (0 : Fin 1) k) = b (ix1 k)) (w : FVec Ideal S16x40 .f32) :
    Host.dotGeneral (F := Ideal) (φ₁ := .f32) (φ₂ := .f32) dot_S100000x16_S16x40_S100000x40_1_0_0_1_n_n none (hiddenHost (F := Ideal) a b) w
      = rowsProduct (A := 100000) (K := 16) (N := 40) (hiddenRows (A := 100000) (K := 16) a b') w := by
  rw [hidden_eq a b b' hb]
  exact funext fun j => hostProduct2 _ w j

/-- The reference's logits are logitRows over any one-row copy of the bias. -/
theorem logits_eq (a : FVec Ideal S100000x40 .f32) (b : FVec Ideal S40 .f32) (b' : (⟨2, ![1, 40]⟩ : Shape).Idx → EReal)
    (hb : ∀ q : Fin 40, b' (ix2 (0 : Fin 1) q) = b (ix1 q)) :
    logitsHost (F := Ideal) a b = logitRows (A := 100000) (N := 40) a b' :=
  funext fun i => by
    obtain ⟨r, q, rfl⟩ : ∃ (r : Fin 100000) (q : Fin 40), i = ix2 r q := ⟨i 0, i 1, eq_ix2 i⟩
    unfold logitsHost logitRows
    show a (ix2 r q) + broadcastInDim S100000x40 ![0, 1] bcast_S1x40_S100000x40_0_1 (broadcastInDim S1x40 ![1] bcast_S40_S1x40_1 b) (ix2 r q)
        = a (ix2 r q) + b' (ix2 (0 : Fin 1) q)
    rw [biasRows40_apply, hb]

/-- The shape fact the row reductions are read with: dropping axis 1 of [100000, 40] leaves [100000]. -/
theorem rowsReduce : S100000x40.Reduces [1] S100000 := by decide

/-- The index a row reduction reads: row r, entry q. -/
theorem row_lift (r : Fin 100000) (q : Fin 40) : rowsReduce.lift (ix1 r) q = ix2 r q :=
  funext fun a => Fin.ext (by match a with | ⟨0, _⟩ => rfl | ⟨1, _⟩ => rfl)

/-- One number per row, as a column, then along the row: every entry of row r reads row r's number. -/
theorem columnHost_apply (v : FVec Ideal S100000 .f32) (r : Fin 100000) (q : Fin 40) :
    broadcastInDim S100000x40 ![0, 1] bcast_S100000x1_S100000x40_0_1 (broadcastInDim S100000x1 ![0] bcast_S100000_S100000x1_0 v) (ix2 r q) = v (ix1 r) := by
  rw [broadcastInDim_apply ![0, 1] bcast_S100000x1_S100000x40_0_1 _ (ix2 r q) (ix2 r (0 : Fin 1)) (fun a => by
    match a with
    | ⟨0, _⟩ =>
      show r.val = if (100000 : ℕ) = 1 then 0 else r.val
      rw [if_neg (by omega)]
    | ⟨1, _⟩ =>
      show (0 : ℕ) = if (1 : ℕ) = 1 then 0 else q.val
      rw [if_pos rfl])]
  exact broadcastInDim_apply ![0] bcast_S100000_S100000x1_0 v (ix2 r (0 : Fin 1)) (ix1 r) (fun a => by
    match a with
    | ⟨0, _⟩ =>
      show r.val = if (100000 : ℕ) = 1 then 0 else r.val
      rw [if_neg (by omega)])

/-- The reference's row maximum is the fold of max over the row from the −∞ pattern. -/
theorem rowMaxHost_apply (z : FVec Ideal S100000x40 .f32) (r : Fin 100000) :
    rowMaxHost (F := Ideal) z (ix1 r) = rowMax (A := 100000) (N := 40) z r := by
  unfold rowMaxHost
  rw [maximumf_apply, broadcastInDim_scalar_apply, constant_apply,
    Host.reduce_eq_fold_single FloatOps.maximumf z (constant (F := Ideal) S_ .f32 0xFF800000#32) reducesTo_S100000x40_S100000_d1 rowsReduce h_S_ (ix1 r),
    constant_apply]
  have e : (Finset.univ : Finset (Fin (S100000x40.size 1))).fold FloatOps.maximumf (Ideal.ofBits .f32 0xFF800000#32) (z ∘ rowsReduce.lift (ix1 r))
      = rowMax (A := 100000) (N := 40) z r := by
    unfold rowMax
    exact Finset.fold_congr fun q _ => congrArg z (row_lift r q)
  rw [e]
  unfold rowMax
  exact max_eq_right ((Finset.le_fold_max _).mpr (Or.inl le_rfl))

/-- The reference's shifted logits, as a function: every entry minus its row's maximum. -/
theorem shiftedHost_eq (z : FVec Ideal S100000x40 .f32) :
    shiftedHost (F := Ideal) z = fun i => z i - rowMax (A := 100000) (N := 40) z (row i) :=
  funext fun i => by
    obtain ⟨r, q, rfl⟩ : ∃ (r : Fin 100000) (q : Fin 40), i = ix2 r q := ⟨i 0, i 1, eq_ix2 i⟩
    unfold shiftedHost
    rw [subf_apply, columnHost_apply, rowMaxHost_apply]

/-- The reference's log-softmax of the rows is logSoftmaxRows. -/
theorem logSoftmax_eq (z : FVec Ideal S100000x40 .f32) :
    logSoftmaxHost (F := Ideal) z = logSoftmaxRows (A := 100000) (N := 40) z :=
  funext fun i => by
    obtain ⟨r, q, rfl⟩ : ∃ (r : Fin 100000) (q : Fin 40), i = ix2 r q := ⟨i 0, i 1, eq_ix2 i⟩
    unfold logSoftmaxHost
    rw [shiftedHost_eq, subf_apply]
    have hcol : ∀ v : FVec Ideal S100000 .f32,
        broadcastInDim S100000x40 ![0, 1] bcast_S100000x1_S100000x40_0_1 (Host.log (F := Ideal) (broadcastInDim S100000x1 ![0] bcast_S100000_S100000x1_0 v)) (ix2 r q)
          = Ideal.log (v (ix1 r)) := fun v => columnHost_apply (Host.log (F := Ideal) v) r q
    rw [hcol, hostReduceAdd_apply, Ideal.hostReduceAdd_single reducesTo_S100000x40_S100000_d1 rowsReduce, constant_apply, Ideal.ofBits_zero_f32, zero_add]
    have hs : ∀ k : Fin 40, Host.exp (F := Ideal) (fun i => z i - rowMax (A := 100000) (N := 40) z (row i)) (rowsReduce.lift (ix1 r) k)
        = Ideal.exp (z (ix2 r k) - rowMax (A := 100000) (N := 40) z r) := fun k => by rw [row_lift r k]; rfl
    show _ - Ideal.log (∑ k : Fin 40, Host.exp (F := Ideal) (fun i => z i - rowMax (A := 100000) (N := 40) z (row i)) (rowsReduce.lift (ix1 r) k)) = _
    simp only [hs]
    rfl

end Cert.GcnReference

end
-- ==== Proof.Bridge.lean ====
/-
  The two programs compute one function.

  The kernel's result (the fold of its three regions and the host stretches between them) is
      log-softmax rows of ( propagate ( max ( propagate (x · W1) + b1 ) 0 · W2 ) + b2 )
  with the dense stages as entry-by-entry functions and each bias as a one-row array; the reference's is  network  of the
  same arguments, with the dense stages as host operations and each bias broadcast along the rows. The graph side is the
  same named functions on both sides. Stage by stage the host operations are the entry-by-entry functions
  (the three lemmas about the reference's stages), a bias vector recast as a one-row array holds the vector's entries,
  and nothing else differs: no law of arithmetic is used beyond reading a contraction as a sum, so finiteness of the
  inputs is never needed.
-/
import proofs.«126225_j51616916963867_1_alg».proof.Proof.KernelFold
import proofs.«126225_j51616916963867_1_alg».proof.Proof.ReferenceStages
import Idealize.ShloMosaic.Lib.ValueLayout

noncomputable section

set_option maxRecDepth 16384

namespace Cert.GcnBridge

open Cert.Gcn Cert.GcnReference Idealize.ShloMosaic Idealize.ShloMosaic.TcCoe Idealize.ShloMosaic.ValueIdx

/-- The reference's network is the kernel's value, as functions of the six argument arrays. -/
theorem network_eq (x : FVec Ideal Cert.ReferenceIdeal.S100000x128 .f32) (e : (⟨Cert.ReferenceIdeal.S2x3200000, .i32⟩ : BufTy).Contents (Elt Ideal))
    (w1 : FVec Ideal Cert.ReferenceIdeal.S128x16 .f32) (b1 : FVec Ideal Cert.ReferenceIdeal.S16 .f32)
    (w2 : FVec Ideal Cert.ReferenceIdeal.S16x40 .f32) (b2 : FVec Ideal Cert.ReferenceIdeal.S40 .f32)
    (h1 : Cert.KernelIdeal.S16.ShapeCasts Cert.KernelIdeal.S1x16) (h2 : Cert.KernelIdeal.S40.ShapeCasts Cert.KernelIdeal.S1x40) :
    network (F := Ideal) x e w1 b1 w2 b2
      = logSoftmaxRows (A := 100000) (N := 40) (logitRows (A := 100000) (N := 40)
          (propagate40 (F := Ideal)
            (rowsProduct (A := 100000) (K := 16) (N := 40)
              (hiddenRows (A := 100000) (K := 16)
                (propagate16 (F := Ideal) (rowsProduct (A := 100000) (K := 128) (N := 16) x w1) (sources (F := Ideal) e) (destinations (F := Ideal) e) (edgeWeights (F := Ideal) (sources (F := Ideal) e) (destinations (F := Ideal) e)))
                (shapeCast Cert.KernelIdeal.S1x16 b1 h1))
              w2)
            (sources (F := Ideal) e) (destinations (F := Ideal) e) (edgeWeights (F := Ideal) (sources (F := Ideal) e) (destinations (F := Ideal) e)))
          (shapeCast Cert.KernelIdeal.S1x40 b2 h2)) := by
  unfold network
  rw [product1_eq x w1,
      product2_eq _ b1 (shapeCast Cert.KernelIdeal.S1x16 b1 h1) (fun k => shapeCast_a_1a_apply b1 h1 (0 : Fin 1) k) w2,
      logits_eq _ b2 (shapeCast Cert.KernelIdeal.S1x40 b2 h2) (fun q => shapeCast_a_1a_apply b2 h2 (0 : Fin 1) q),
      logSoftmax_eq]

end Cert.GcnBridge

end
-- ==== Proof.lean ====
/-
  A two-layer graph convolution with a log-softmax head: the Pallas kernel program (three gridded regions — x · W1;
  bias, positive part, · W2; bias, log-softmax — with the graph's gather / scatter-add between them as host operations)
  against the jnp reference (the same network as host operations throughout).

  frame_Kernel, frame_KernelIdeal: the generated frame certificates (every region is of the class whose frame is
  generated whole). frame_ReferenceIdeal: the reference's run with the result dropped. preserves: the ideal pass rewrote
  nothing, so the statement is True. algebraic: at the exact values the kernel program's result buffer ends at one
  function of the six arguments (KernelRun, KernelFold: region by region, each region's output array a whole-array
  function of its input arrays because every stage works row by row and the ten row blocks tile the array), the
  reference's at  network  of them (ReferenceRun), and the two are one function (Bridge): a narrowing of the float
  format is the identity, a product accumulated into zeros is the host's product, a lane maximum or lane sum is the
  host's reduction of the row, the larger of −∞ and a maximum taken from −∞ is that maximum, a sum started from 0 is the
  sum. The precondition is never opened: nothing here needs the inputs finite.
-/
import proofs.«126225_j51616916963867_1_alg».proof.Defs
import proofs.«126225_j51616916963867_1_alg».proof.Proof.Gen.Kernel
import proofs.«126225_j51616916963867_1_alg».proof.Proof.Gen.Kernel.Frame
import proofs.«126225_j51616916963867_1_alg».proof.Proof.Gen.KernelIdeal
import proofs.«126225_j51616916963867_1_alg».proof.Proof.Gen.KernelIdeal.Frame
import proofs.«126225_j51616916963867_1_alg».proof.Proof.Gen.ReferenceIdeal
import proofs.«126225_j51616916963867_1_alg».proof.Proof.Gen.Pre_finite_inputs
import proofs.«126225_j51616916963867_1_alg».proof.Proof.KernelRun
import proofs.«126225_j51616916963867_1_alg».proof.Proof.KernelFold
import proofs.«126225_j51616916963867_1_alg».proof.Proof.ReferenceRun
import proofs.«126225_j51616916963867_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.GcnReference.Run.run (F := Ideal) m ρ)

/-- The ideal pass rewrote no operation: there is nothing to state. -/
theorem preserves : Cert.preserves_Kernel_KernelIdeal := trivial

/-- From memories agreeing on the six arguments both programs end with the same result array: the kernel program's is the
    fold's last boundary at the result buffer, which is the network's value (KernelFold, Bridge); the reference's is
    network of its own arguments, which are the kernel's. -/
theorem algebraic : Cert.algebraic_KernelIdeal_ReferenceIdeal := by
  intro m ρ m' ρ' _ hagree
  refine ⟨fun c => Cert.KernelIdeal.Gen.W8 m ρ c (Proc.devRef .tc Cert.KernelIdeal.main_v62), Cert.KernelIdeal.Gen.run_result m ρ, ?_⟩
  refine (θ_run Cert.ReferenceIdeal.defs _ _).mono (fun _ h c => ⟨(h c).1.trans ?_, (h c).2⟩) (Cert.GcnReference.Run.run (F := Ideal) m' ρ')
  rw [(hagree c).1, (hagree c).2.1, (hagree c).2.2.1, (hagree c).2.2.2.1, (hagree c).2.2.2.2.1, (hagree c).2.2.2.2.2]
  exact (Cert.GcnBridge.network_eq _ _ _ _ _ _ _ _).trans (Cert.GcnKernel.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
